-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S40000 : Shape := ⟨1, ![40000]⟩
abbrev S2000000 : Shape := ⟨1, ![2000000]⟩
abbrev S200000x64 : Shape := ⟨2, ![200000, 64]⟩
abbrev S40000x64 : Shape := ⟨2, ![40000, 64]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S40000x64 : S_.BroadcastsInDim S40000x64 (![] : Fin 0 → Fin S40000x64.rank)
  reducesTo_S40000x64_S_d0_1 : S40000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg17 : FVec F S64 .f32) (main_arg18 : FVec F S64 .f32) (main_arg19 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg17
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg19
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_v33 : IVec S_ 1) : IVec S_ 1 :=
  let main_v34 : FVec F S64x64 .f32 := Host.absf main_arg13
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg14
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg15
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg16
  let main_cst_18 : FVec F S_ .f32 := constant S_ .f32 0x7F800000#32
  let main_v50 : FVec F S64 .f32 := broadcastInDim S64 ![] bcast_S_S64 main_cst_18
  fn_part3 (F := F) main_arg17 main_arg18 main_arg19 main_v48 main_v49 main_v50

def fn_part1 {F : FTy → Type} [FloatOps F] (main_arg10 : FVec F S64x64 .f32) (main_arg11 : FVec F S64x64 .f32) (main_arg12 : FVec F S64x64 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg10
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg11
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg12
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg13 main_arg14 main_arg15 main_arg16 main_arg17 main_arg18 main_arg19 main_v33

def fn {F : FTy → Type} [FloatOps F] (main_arg0 : IVec S200000 32) (main_arg1 : IVec S40000 32) (main_arg2 : IVec S2000000 32) (main_arg3 : IVec S2000000 32) (main_arg4 : IVec S2000000 32) (main_arg5 : IVec S2000000 32) (main_arg6 : FVec F S200000x64 .f32) (main_arg7 : FVec F S40000x64 .f32) (main_arg8 : FVec F S64x64 .f32) (main_arg9 : FVec F S64x64 .f32) (main_arg10 : FVec F S64x64 .f32) (main_arg11 : FVec F S64x64 .f32) (main_arg12 : FVec F S64x64 .f32) (main_arg13 : FVec F S64x64 .f32) (main_arg14 : FVec F S64x64 .f32) (main_arg15 : FVec F S64x64 .f32) (main_arg16 : FVec F S64 .f32) (main_arg17 : FVec F S64 .f32) (main_arg18 : FVec F S64 .f32) (main_arg19 : FVec F S64 .f32) : IVec S_ 1 :=
  let main_v0 : FVec F S200000x64 .f32 := Host.absf main_arg6
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S40000x64 .f32 := Host.absf main_arg7
  let main_cst_0 : FVec F S_ .f32 := constant S_ .f32 0x7F800000#32
  let main_v5 : FVec F S40000x64 .f32 := broadcastInDim S40000x64 ![] bcast_S_S40000x64 main_cst_0
  let main_v6 : IVec S40000x64 1 := cmpf .olt main_v4 main_v5
  let main_c_1 : IVec S_ 1 := constantI S_ 1 1#1
  let main_v7 : IVec S_ 1 := (fun x v => Host.reduce IntOp.andi x v reducesTo_S40000x64_S_d0_1 h_S_) main_v6 main_c_1
  let main_v8 : IVec S_ 1 := andi main_v3 main_v7
  let main_v9 : FVec F S64x64 .f32 := Host.absf main_arg8
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg9
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg10 main_arg11 main_arg12 main_arg13 main_arg14 main_arg15 main_arg16 main_arg17 main_arg18 main_arg19 main_v13 main_v16
-- ==== Kernel.lean ====
abbrev S200000 : Shape := ⟨1, ![200000]⟩
abbrev S40000 : Shape := ⟨1, ![40000]⟩
abbrev S2000000 : Shape := ⟨1, ![2000000]⟩
abbrev S200000x64 : Shape := ⟨2, ![200000, 64]⟩
abbrev S40000x64 : Shape := ⟨2, ![40000, 64]⟩
abbrev S64x64 : Shape := ⟨2, ![64, 64]⟩
abbrev S64 : Shape := ⟨1, ![64]⟩
abbrev S_ : Shape := ⟨0, ![]⟩
abbrev S200000x1 : Shape := ⟨2, ![200000, 1]⟩
abbrev S40000x1 : Shape := ⟨2, ![40000, 1]⟩
abbrev S2000000x1 : Shape := ⟨2, ![2000000, 1]⟩
abbrev S2000000x64 : Shape := ⟨2, ![2000000, 64]⟩
abbrev S5000x64 : Shape := ⟨2, ![5000, 64]⟩
abbrev S1x64 : Shape := ⟨2, ![1, 64]⟩

abbrev nBuf : Space → Nat
  | .hbm => 120
  | .vmem => 36
  | .smem => 0
  | _ => 0

abbrev bufTy : (tb : Table) → Fin (tcTables nBuf tb) → BufTy
  | .hbm, ⟨0, _⟩ => ⟨S200000, .i32⟩
  | .hbm, ⟨1, _⟩ => ⟨S40000, .i32⟩
  | .hbm, ⟨2, _⟩ => ⟨S2000000, .i32⟩
  | .hbm, ⟨3, _⟩ => ⟨S2000000, .i32⟩
  | .hbm, ⟨4, _⟩ => ⟨S2000000, .i32⟩
  | .hbm, ⟨5, _⟩ => ⟨S2000000, .i32⟩
  | .hbm, ⟨6, _⟩ => ⟨S200000x64, .f32⟩
  | .hbm, ⟨7, _⟩ => ⟨S40000x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .i32⟩
  | .hbm, ⟨21, _⟩ => ⟨S200000, .i32⟩
  | .hbm, ⟨22, _⟩ => ⟨S200000, .i1⟩
  | .hbm, ⟨23, _⟩ => ⟨S_, .i32⟩
  | .hbm, ⟨24, _⟩ => ⟨S200000, .i32⟩
  | .hbm, ⟨25, _⟩ => ⟨S200000, .i32⟩
  | .hbm, ⟨26, _⟩ => ⟨S200000, .i32⟩
  | .hbm, ⟨27, _⟩ => ⟨S200000x1, .i32⟩
  | .hbm, ⟨28, _⟩ => ⟨S200000x64, .f32⟩
  | .hbm, ⟨29, _⟩ => ⟨S_, .i32⟩
  | .hbm, ⟨30, _⟩ => ⟨S40000, .i32⟩
  | .hbm, ⟨31, _⟩ => ⟨S40000, .i1⟩
  | .hbm, ⟨32, _⟩ => ⟨S_, .i32⟩
  | .hbm, ⟨33, _⟩ => ⟨S40000, .i32⟩
  | .hbm, ⟨34, _⟩ => ⟨S40000, .i32⟩
  | .hbm, ⟨35, _⟩ => ⟨S40000, .i32⟩
  | .hbm, ⟨36, _⟩ => ⟨S40000x1, .i32⟩
  | .hbm, ⟨37, _⟩ => ⟨S40000x64, .f32⟩
  | .hbm, ⟨38, _⟩ => ⟨S_, .f32⟩
  | .hbm, ⟨39, _⟩ => ⟨S2000000, .f32⟩
  | .hbm, ⟨40, _⟩ => ⟨S_, .f32⟩
  | .hbm, ⟨41, _⟩ => ⟨S40000, .f32⟩
  | .hbm, ⟨42, _⟩ => ⟨S2000000x1, .i32⟩
  | .hbm, ⟨43, _⟩ => ⟨S40000, .f32⟩
  | .hbm, ⟨44, _⟩ => ⟨S40000x1, .f32⟩
  | .hbm, ⟨45, _⟩ => ⟨S_, .f32⟩
  | .hbm, ⟨46, _⟩ => ⟨S40000x1, .f32⟩
  | .hbm, ⟨47, _⟩ => ⟨S40000x1, .f32⟩
  | .hbm, ⟨48, _⟩ => ⟨S_, .f32⟩
  | .hbm, ⟨49, _⟩ => ⟨S200000, .f32⟩
  | .hbm, ⟨50, _⟩ => ⟨S2000000x1, .i32⟩
  | .hbm, ⟨51, _⟩ => ⟨S200000, .f32⟩
  | .hbm, ⟨52, _⟩ => ⟨S200000x1, .f32⟩
  | .hbm, ⟨53, _⟩ => ⟨S_, .f32⟩
  | .hbm, ⟨54, _⟩ => ⟨S200000x1, .f32⟩
  | .hbm, ⟨55, _⟩ => ⟨S200000x1, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x64, .f32⟩
  | .hbm, ⟨65, _⟩ => ⟨S_, .f32⟩
  | .hbm, ⟨66, _⟩ => ⟨S40000x64, .f32⟩
  | .hbm, ⟨67, _⟩ => ⟨S2000000x1, .i32⟩
  | .hbm, ⟨68, _⟩ => ⟨S40000x64, .f32⟩
  | .hbm, ⟨69, _⟩ => ⟨S40000x64, .f32⟩
  | .hbm, ⟨70, _⟩ => ⟨S40000x64, .f32⟩
  | .hbm, ⟨71, _⟩ => ⟨S40000x64, .f32⟩
  | .hbm, ⟨72, _⟩ => ⟨S_, .i32⟩
  | .hbm, ⟨73, _⟩ => ⟨S2000000, .i32⟩
  | .hbm, ⟨74, _⟩ => ⟨S2000000, .i1⟩
  | .hbm, ⟨75, _⟩ => ⟨S_, .i32⟩
  | .hbm, ⟨76, _⟩ => ⟨S2000000, .i32⟩
  | .hbm, ⟨77, _⟩ => ⟨S2000000, .i32⟩
  | .hbm, ⟨78, _⟩ => ⟨S2000000, .i32⟩
  | .hbm, ⟨79, _⟩ => ⟨S2000000x1, .i32⟩
  | .hbm, ⟨80, _⟩ => ⟨S2000000x64, .f32⟩
  | .hbm, ⟨81, _⟩ => ⟨S_, .f32⟩
  | .hbm, ⟨82, _⟩ => ⟨S200000x64, .f32⟩
  | .hbm, ⟨83, _⟩ => ⟨S2000000x1, .i32⟩
  | .hbm, ⟨84, _⟩ => ⟨S200000x64, .f32⟩
  | .hbm, ⟨85, _⟩ => ⟨S200000x64, .f32⟩
  | .hbm, ⟨86, _⟩ => ⟨S200000x64, .f32⟩
  | .hbm, ⟨87, _⟩ => ⟨S200000x64, .f32⟩
  | .hbm, ⟨88, _⟩ => ⟨S_, .i32⟩
  | .hbm, ⟨89, _⟩ => ⟨S2000000, .i32⟩
  | .hbm, ⟨90, _⟩ => ⟨S2000000, .i1⟩
  | .hbm, ⟨91, _⟩ => ⟨S_, .i32⟩
  | .hbm, ⟨92, _⟩ => ⟨S2000000, .i32⟩
  | .hbm, ⟨93, _⟩ => ⟨S2000000, .i32⟩
  | .hbm, ⟨94, _⟩ => ⟨S2000000, .i32⟩
  | .hbm, ⟨95, _⟩ => ⟨S2000000x1, .i32⟩
  | .hbm, ⟨96, _⟩ => ⟨S2000000x64, .f32⟩
  | .hbm, ⟨97, _⟩ => ⟨S_, .f32⟩
  | .hbm, ⟨98, _⟩ => ⟨S40000x64, .f32⟩
  | .hbm, ⟨99, _⟩ => ⟨S2000000x1, .i32⟩
  | .hbm, ⟨100, _⟩ => ⟨S40000x64, .f32⟩
  | .hbm, ⟨101, _⟩ => ⟨S40000x64, .f32⟩
  | .hbm, ⟨102, _⟩ => ⟨S40000x64, .f32⟩
  | .hbm, ⟨103, _⟩ => ⟨S40000x64, .f32⟩
  | .hbm, ⟨104, _⟩ => ⟨S_, .i32⟩
  | .hbm, ⟨105, _⟩ => ⟨S2000000, .i32⟩
  | .hbm, ⟨106, _⟩ => ⟨S2000000, .i1⟩
  | .hbm, ⟨107, _⟩ => ⟨S_, .i32⟩
  | .hbm, ⟨108, _⟩ => ⟨S2000000, .i32⟩
  | .hbm, ⟨109, _⟩ => ⟨S2000000, .i32⟩
  | .hbm, ⟨110, _⟩ => ⟨S2000000, .i32⟩
  | .hbm, ⟨111, _⟩ => ⟨S2000000x1, .i32⟩
  | .hbm, ⟨112, _⟩ => ⟨S2000000x64, .f32⟩
  | .hbm, ⟨113, _⟩ => ⟨S_, .f32⟩
  | .hbm, ⟨114, _⟩ => ⟨S200000x64, .f32⟩
  | .hbm, ⟨115, _⟩ => ⟨S2000000x1, .i32⟩
  | .hbm, ⟨116, _⟩ => ⟨S200000x64, .f32⟩
  | .hbm, ⟨117, _⟩ => ⟨S200000x64, .f32⟩
  | .hbm, ⟨118, _⟩ => ⟨S200000x64, .f32⟩
  | .hbm, ⟨119, _⟩ => ⟨S200000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S64x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_cst_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_c_7 : Ref sig .tc := ⟨.hbm, 56, rfl⟩
abbrev main_v27 : Ref sig .tc := ⟨.hbm, 57, rfl⟩
abbrev main_v28 : Ref sig .tc := ⟨.hbm, 58, rfl⟩
abbrev main_c_8 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_c_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_13 : Ref sig .tc := ⟨.hbm, 88, rfl⟩
abbrev main_v53 : Ref sig .tc := ⟨.hbm, 89, rfl⟩
abbrev main_v54 : Ref sig .tc := ⟨.hbm, 90, rfl⟩
abbrev main_c_14 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_c_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_18 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S40000x1 : S_.BroadcastsInDim S40000x1 (![] : Fin 0 → Fin S40000x1.rank)
  bcast_S_S200000x1 : S_.BroadcastsInDim S200000x1 (![] : Fin 0 → Fin S200000x1.rank)
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  gather_S200000x64_S200000x1_S200000x64_1_0_n_n_0_1_164_wf : GatherDims.WF S200000x64 S200000x1 S200000x64 [1] [0] [] [0] [] 1 ![1, 64]
  gather_S40000x64_S40000x1_S40000x64_1_0_n_n_0_1_164_wf : GatherDims.WF S40000x64 S40000x1 S40000x64 [1] [0] [] [0] [] 1 ![1, 64]
  scatter_S40000_S2000000x1_S2000000_n_0_0_1_wf : ScatterDims.WF S40000 S2000000x1 S2000000 [] [0] [0] 1
  scatter_S200000_S2000000x1_S2000000_n_0_0_1_wf : ScatterDims.WF S200000 S2000000x1 S2000000 [] [0] [0] 1
  gather_S200000x64_S2000000x1_S2000000x64_1_0_n_n_0_1_164_wf : GatherDims.WF S200000x64 S2000000x1 S2000000x64 [1] [0] [] [0] [] 1 ![1, 64]
  scatter_S40000x64_S2000000x1_S2000000x64_1_0_0_1_wf : ScatterDims.WF S40000x64 S2000000x1 S2000000x64 [1] [0] [0] 1
  dot_S5000x64_S64x64_S5000x64_1_0_0_1_n_n_wf : DotDims.WF S5000x64 S64x64 S5000x64 [1] [0] [0] [1] [] []
  gather_S40000x64_S2000000x1_S2000000x64_1_0_n_n_0_1_164_wf : GatherDims.WF S40000x64 S2000000x1 S2000000x64 [1] [0] [] [0] [] 1 ![1, 64]
  scatter_S200000x64_S2000000x1_S2000000x64_1_0_0_1_wf : ScatterDims.WF S200000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S40000x64.size a
  hwx0_0 : ∀ i : grid0.Coords, EltTy.bits .f32 = 32 ∨ (Rect.block (s := S40000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S40000x64.size a
  hwx0_1 : ∀ i : grid0.Coords, EltTy.bits .f32 = 32 ∨ (Rect.block (s := S40000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S40000x64.size a
  hwx0_5 : ∀ i : grid0.Coords, EltTy.bits .f32 = 32 ∨ (Rect.block (s := S40000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S200000x64.size a
  hwx1_5 : ∀ i : grid1.Coords, EltTy.bits .f32 = 32 ∨ (Rect.block (s := S200000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S40000x64.size a
  hwx2_0 : ∀ i : grid2.Coords, EltTy.bits .f32 = 32 ∨ (Rect.block (s := S40000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S40000x64.size a
  hwx2_1 : ∀ i : grid2.Coords, EltTy.bits .f32 = 32 ∨ (Rect.block (s := S40000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S40000x64.size a
  hwx2_5 : ∀ i : grid2.Coords, EltTy.bits .f32 = 32 ∨ (Rect.block (s := S40000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S200000x64.size a
  hwx3_5 : ∀ i : grid3.Coords, EltTy.bits .f32 = 32 ∨ (Rect.block (s := S200000x64) S5000x64.size (cc3_transform_5 i) (hinb3_5 i)).WholeWords (EltTy.packing .f32)

variable [Facts₀]

def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def gather_S40000x64_S40000x1_S40000x64_1_0_n_n_0_1_164 : GatherDims S40000x64 S40000x1 S40000x64 where
  offsetDims := [1]
  collapsedSliceDims := [0]
  operandBatchingDims := []
  startIndicesBatchingDims := []
  startIndexMap := [0]
  indexVectorDim := 1
  sliceSizes := ![1, 64]
  wf := gather_S40000x64_S40000x1_S40000x64_1_0_n_n_0_1_164_wf
def scatter_S40000_S2000000x1_S2000000_n_0_0_1 : ScatterDims S40000 S2000000x1 S2000000 where
  updateWindowDims := []
  insertedWindowDims := [0]
  scatterDimsToOperandDims := [0]
  indexVectorDim := 1
  wf := scatter_S40000_S2000000x1_S2000000_n_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S40000x64_S2000000x1_S2000000x64_1_0_0_1 : ScatterDims S40000x64 S2000000x1 S2000000x64 where
  updateWindowDims := [1]
  insertedWindowDims := [0]
  scatterDimsToOperandDims := [0]
  indexVectorDim := 1
  wf := scatter_S40000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S40000x64_S2000000x1_S2000000x64_1_0_n_n_0_1_164 : GatherDims S40000x64 S2000000x1 S2000000x64 where
  offsetDims := [1]
  collapsedSliceDims := [0]
  operandBatchingDims := []
  startIndicesBatchingDims := []
  startIndexMap := [0]
  indexVectorDim := 1
  sliceSizes := ![1, 64]
  wf := gather_S40000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

abbrev win0_0 : Pipeline.Window sig grid0 :=
  Pipeline.Window.ofSpec (Memref.whole main_v38) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v51) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v77) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000 : Shape := ⟨1, ![200000]⟩
abbrev S40000 : Shape := ⟨1, ![40000]⟩
abbrev S2000000 : Shape := ⟨1, ![2000000]⟩
abbrev S200000x64 : Shape := ⟨2, ![200000, 64]⟩
abbrev S40000x64 : Shape := ⟨2, ![40000, 64]⟩
abbrev S64x64 : Shape := ⟨2, ![64, 64]⟩
abbrev S64 : Shape := ⟨1, ![64]⟩
abbrev S_ : Shape := ⟨0, ![]⟩
abbrev S200000x1 : Shape := ⟨2, ![200000, 1]⟩
abbrev S40000x1 : Shape := ⟨2, ![40000, 1]⟩
abbrev S2000000x1 : Shape := ⟨2, ![2000000, 1]⟩
abbrev S2000000x64 : Shape := ⟨2, ![2000000, 64]⟩
abbrev S1x64 : Shape := ⟨2, ![1, 64]⟩

abbrev nBuf : Space → Nat
  | .hbm => 164
  | .vmem => 0
  | .smem => 0
  | _ => 0

abbrev hbmTy0_0 (i : Nat) : BufTy := match i % 128 with
  | 0 => ⟨S200000, .i32⟩
  | 1 => ⟨S40000, .i32⟩
  | 2 => ⟨S2000000, .i32⟩
  | 3 => ⟨S2000000, .i32⟩
  | 4 => ⟨S2000000, .i32⟩
  | 5 => ⟨S2000000, .i32⟩
  | 6 => ⟨S200000x64, .f32⟩
  | 7 => ⟨S40000x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64, .f32⟩
  | 17 => ⟨S64, .f32⟩
  | 18 => ⟨S64, .f32⟩
  | 19 => ⟨S64, .f32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x64, .f32⟩
  | 29 => ⟨S_, .i32⟩
  | 30 => ⟨S40000, .i32⟩
  | 31 => ⟨S40000, .i1⟩
  | 32 => ⟨S_, .i32⟩
  | 33 => ⟨S40000, .i32⟩
  | 34 => ⟨S40000, .i32⟩
  | 35 => ⟨S40000, .i32⟩
  | 36 => ⟨S40000x1, .i32⟩
  | 37 => ⟨S40000x64, .f32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S2000000x64, .f32⟩
  | 47 => ⟨S_, .f32⟩
  | 48 => ⟨S40000x64, .f32⟩
  | 49 => ⟨S2000000x1, .i32⟩
  | 50 => ⟨S40000x64, .f32⟩
  | 51 => ⟨S_, .f32⟩
  | 52 => ⟨S2000000x1, .f32⟩
  | 53 => ⟨S_, .f32⟩
  | 54 => ⟨S40000x1, .f32⟩
  | 55 => ⟨S2000000x1, .i32⟩
  | 56 => ⟨S40000x1, .f32⟩
  | 57 => ⟨S_, .f32⟩
  | 58 => ⟨S40000x1, .f32⟩
  | 59 => ⟨S40000x1, .f32⟩
  | 60 => ⟨S40000x64, .f32⟩
  | 61 => ⟨S40000x64, .f32⟩
  | 62 => ⟨S40000x64, .f32⟩
  | 63 => ⟨S40000x64, .f32⟩
  | 64 => ⟨S40000x64, .f32⟩
  | 65 => ⟨S1x64, .f32⟩
  | 66 => ⟨S40000x64, .f32⟩
  | 67 => ⟨S40000x64, .f32⟩
  | 68 => ⟨S_, .f32⟩
  | 69 => ⟨S40000x64, .f32⟩
  | 70 => ⟨S40000x64, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S_, .f32⟩
  | 81 => ⟨S200000x64, .f32⟩
  | 82 => ⟨S2000000x1, .i32⟩
  | 83 => ⟨S200000x64, .f32⟩
  | 84 => ⟨S_, .f32⟩
  | 85 => ⟨S2000000x1, .f32⟩
  | 86 => ⟨S_, .f32⟩
  | 87 => ⟨S200000x1, .f32⟩
  | 88 => ⟨S2000000x1, .i32⟩
  | 89 => ⟨S200000x1, .f32⟩
  | 90 => ⟨S_, .f32⟩
  | 91 => ⟨S200000x1, .f32⟩
  | 92 => ⟨S200000x1, .f32⟩
  | 93 => ⟨S200000x64, .f32⟩
  | 94 => ⟨S200000x64, .f32⟩
  | 95 => ⟨S200000x64, .f32⟩
  | 96 => ⟨S200000x64, .f32⟩
  | 97 => ⟨S200000x64, .f32⟩
  | 98 => ⟨S1x64, .f32⟩
  | 99 => ⟨S200000x64, .f32⟩
  | 100 => ⟨S200000x64, .f32⟩
  | 101 => ⟨S_, .f32⟩
  | 102 => ⟨S200000x64, .f32⟩
  | 103 => ⟨S200000x64, .f32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i32⟩
  | 110 => ⟨S2000000, .i32⟩
  | 111 => ⟨S2000000x1, .i32⟩
  | 112 => ⟨S2000000x64, .f32⟩
  | 113 => ⟨S_, .f32⟩
  | 114 => ⟨S40000x64, .f32⟩
  | 115 => ⟨S2000000x1, .i32⟩
  | 116 => ⟨S40000x64, .f32⟩
  | 117 => ⟨S_, .f32⟩
  | 118 => ⟨S2000000x1, .f32⟩
  | 119 => ⟨S_, .f32⟩
  | 120 => ⟨S40000x1, .f32⟩
  | 121 => ⟨S2000000x1, .i32⟩
  | 122 => ⟨S40000x1, .f32⟩
  | 123 => ⟨S_, .f32⟩
  | 124 => ⟨S40000x1, .f32⟩
  | 125 => ⟨S40000x1, .f32⟩
  | 126 => ⟨S40000x64, .f32⟩
  | 127 => ⟨S40000x64, .f32⟩
  | _ => ⟨S200000, .i32⟩

abbrev hbmTy0_1 (i : Nat) : BufTy := match i % 128 with
  | 0 => ⟨S40000x64, .f32⟩
  | 1 => ⟨S40000x64, .f32⟩
  | 2 => ⟨S40000x64, .f32⟩
  | 3 => ⟨S1x64, .f32⟩
  | 4 => ⟨S40000x64, .f32⟩
  | 5 => ⟨S40000x64, .f32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S2000000x64, .f32⟩
  | 15 => ⟨S_, .f32⟩
  | 16 => ⟨S200000x64, .f32⟩
  | 17 => ⟨S2000000x1, .i32⟩
  | 18 => ⟨S200000x64, .f32⟩
  | 19 => ⟨S_, .f32⟩
  | 20 => ⟨S2000000x1, .f32⟩
  | 21 => ⟨S_, .f32⟩
  | 22 => ⟨S200000x1, .f32⟩
  | 23 => ⟨S2000000x1, .i32⟩
  | 24 => ⟨S200000x1, .f32⟩
  | 25 => ⟨S_, .f32⟩
  | 26 => ⟨S200000x1, .f32⟩
  | 27 => ⟨S200000x1, .f32⟩
  | 28 => ⟨S200000x64, .f32⟩
  | 29 => ⟨S200000x64, .f32⟩
  | 30 => ⟨S200000x64, .f32⟩
  | 31 => ⟨S200000x64, .f32⟩
  | 32 => ⟨S200000x64, .f32⟩
  | 33 => ⟨S1x64, .f32⟩
  | 34 => ⟨S200000x64, .f32⟩
  | 35 => ⟨S200000x64, .f32⟩
  | _ => ⟨S200000, .i32⟩

abbrev hbmTy (i : Nat) : BufTy := match i / 128 with
  | 0 => hbmTy0_0 i
  | 1 => hbmTy0_1 i
  | _ => ⟨S200000, .i32⟩

abbrev bufTy : (tb : Table) → Fin (tcTables nBuf tb) → BufTy
  | .hbm, ⟨i, _⟩ => hbmTy i
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_cst_6 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call0_cst : Ref sig .tc := ⟨.hbm, 68, rfl⟩
abbrev main_call0_v0 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_c_9 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_11 : Ref sig .tc := ⟨.hbm, 84, rfl⟩
abbrev main_v49 : Ref sig .tc := ⟨.hbm, 85, rfl⟩
abbrev main_cst_12 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_13 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call1_cst : Ref sig .tc := ⟨.hbm, 101, rfl⟩
abbrev main_call1_v0 : Ref sig .tc := ⟨.hbm, 102, rfl⟩
abbrev main_v63 : Ref sig .tc := ⟨.hbm, 103, rfl⟩
abbrev main_c_14 : Ref sig .tc := ⟨.hbm, 104, rfl⟩
abbrev main_v64 : Ref sig .tc := ⟨.hbm, 105, rfl⟩
abbrev main_v65 : Ref sig .tc := ⟨.hbm, 106, rfl⟩
abbrev main_c_15 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_16 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_17 : Ref sig .tc := ⟨.hbm, 117, rfl⟩
abbrev main_v74 : Ref sig .tc := ⟨.hbm, 118, rfl⟩
abbrev main_cst_18 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_19 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_20 : Ref sig .tc := ⟨.hbm, 134, rfl⟩
abbrev main_v88 : Ref sig .tc := ⟨.hbm, 135, rfl⟩
abbrev main_v89 : Ref sig .tc := ⟨.hbm, 136, rfl⟩
abbrev main_c_21 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_22 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_23 : Ref sig .tc := ⟨.hbm, 147, rfl⟩
abbrev main_v98 : Ref sig .tc := ⟨.hbm, 148, rfl⟩
abbrev main_cst_24 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_25 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S_S40000 : S_.BroadcastsInDim S40000 (![] : Fin 0 → Fin S40000.rank)
  bcast_S40000_S40000x1_0 : S40000.BroadcastsInDim S40000x1 (![0] : Fin 1 → Fin S40000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S40000x64 : S_.BroadcastsInDim S40000x64 (![] : Fin 0 → Fin S40000x64.rank)
  bcast_S_S2000000x1 : S_.BroadcastsInDim S2000000x1 (![] : Fin 0 → Fin S2000000x1.rank)
  bcast_S_S40000x1 : S_.BroadcastsInDim S40000x1 (![] : Fin 0 → Fin S40000x1.rank)
  bcast_S40000x1_S40000x64_0_1 : S40000x1.BroadcastsInDim S40000x64 (![0, 1] : Fin 2 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  gather_S200000x64_S200000x1_S200000x64_1_0_n_n_0_1_164_wf : GatherDims.WF S200000x64 S200000x1 S200000x64 [1] [0] [] [0] [] 1 ![1, 64]
  gather_S40000x64_S40000x1_S40000x64_1_0_n_n_0_1_164_wf : GatherDims.WF S40000x64 S40000x1 S40000x64 [1] [0] [] [0] [] 1 ![1, 64]
  gather_S200000x64_S2000000x1_S2000000x64_1_0_n_n_0_1_164_wf : GatherDims.WF S200000x64 S2000000x1 S2000000x64 [1] [0] [] [0] [] 1 ![1, 64]
  scatter_S40000x64_S2000000x1_S2000000x64_1_0_0_1_wf : ScatterDims.WF S40000x64 S2000000x1 S2000000x64 [1] [0] [0] 1
  scatter_S40000x1_S2000000x1_S2000000x1_1_0_0_1_wf : ScatterDims.WF S40000x1 S2000000x1 S2000000x1 [1] [0] [0] 1
  dot_S40000x64_S64x64_S40000x64_1_0_0_1_n_n_wf : DotDims.WF S40000x64 S64x64 S40000x64 [1] [0] [0] [1] [] []
  gather_S40000x64_S2000000x1_S2000000x64_1_0_n_n_0_1_164_wf : GatherDims.WF S40000x64 S2000000x1 S2000000x64 [1] [0] [] [0] [] 1 ![1, 64]
  scatter_S200000x64_S2000000x1_S2000000x64_1_0_0_1_wf : ScatterDims.WF S200000x64 S2000000x1 S2000000x64 [1] [0] [0] 1
  scatter_S200000x1_S2000000x1_S2000000x1_1_0_0_1_wf : ScatterDims.WF S200000x1 S2000000x1 S2000000x1 [1] [0] [0] 1
  dot_S200000x64_S64x64_S200000x64_1_0_0_1_n_n_wf : DotDims.WF S200000x64 S64x64 S200000x64 [1] [0] [0] [1] [] []

variable [Facts₀]

def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def gather_S40000x64_S40000x1_S40000x64_1_0_n_n_0_1_164 : GatherDims S40000x64 S40000x1 S40000x64 where
  offsetDims := [1]
  collapsedSliceDims := [0]
  operandBatchingDims := []
  startIndicesBatchingDims := []
  startIndexMap := [0]
  indexVectorDim := 1
  sliceSizes := ![1, 64]
  wf := gather_S40000x64_S40000x1_S40000x64_1_0_n_n_0_1_164_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S40000x64_S2000000x1_S2000000x64_1_0_0_1 : ScatterDims S40000x64 S2000000x1 S2000000x64 where
  updateWindowDims := [1]
  insertedWindowDims := [0]
  scatterDimsToOperandDims := [0]
  indexVectorDim := 1
  wf := scatter_S40000x64_S2000000x1_S2000000x64_1_0_0_1_wf
def scatter_S40000x1_S2000000x1_S2000000x1_1_0_0_1 : ScatterDims S40000x1 S2000000x1 S2000000x1 where
  updateWindowDims := [1]
  insertedWindowDims := [0]
  scatterDimsToOperandDims := [0]
  indexVectorDim := 1
  wf := scatter_S40000x1_S2000000x1_S2000000x1_1_0_0_1_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def gather_S40000x64_S2000000x1_S2000000x64_1_0_n_n_0_1_164 : GatherDims S40000x64 S2000000x1 S2000000x64 where
  offsetDims := [1]
  collapsedSliceDims := [0]
  operandBatchingDims := []
  startIndicesBatchingDims := []
  startIndexMap := [0]
  indexVectorDim := 1
  sliceSizes := ![1, 64]
  wf := gather_S40000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf
def scatter_S200000x1_S2000000x1_S2000000x1_1_0_0_1 : ScatterDims S200000x1 S2000000x1 S2000000x1 where
  updateWindowDims := [1]
  insertedWindowDims := [0]
  scatterDimsToOperandDims := [0]
  indexVectorDim := 1
  wf := scatter_S200000x1_S2000000x1_S2000000x1_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.KernelRun.lean ====
/-
  The idealized kernel's run with its two results kept.  The program is four pipelined regions among stretches
  of host operations; at the end of the last region every unscoped buffer of core `c` holds `W8 m ρ c`, the
  fold of the launch memory through the stretches and the regions' write-backs.  The frame claim reads only the
  argument buffers off that final valuation; here the two result buffers are read off it as well, so that the
  run's post names what the users' and the movies' second-layer embeddings end holding.
-/
import proofs.«178897_j10419590660202_1_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the users' result buffer and the
    movies' result buffer end at the final valuation's contents, and the arguments end as launched. -/
theorem run_results : θ_run defs (onTc (τ := τ) (main (F := F))) ⟨m, fun _ => 0, ρ⟩ (fun r => ∀ c : Dev nD,
      r.2.mem ((c.tc : Thread nD τ).loc main_v78) = W8 m ρ c (Proc.devRef .tc main_v78)
      ∧ r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v78 (by decide)),
       h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)

end Cert.KernelIdeal.Fold

end
-- ==== Proof.Payload.lean ====
/-
  One block of the combine step, index by index.

  A grid point of each region holds a block of 5000 rows of the aggregated neighbour means `a` and of the
  destination features `x` (both 5000 × 64), the two 64 × 64 weight matrices `wl`, `wr` and the bias `b`, and
  writes the block  a · wl + x · wr + b  (the first layer then takes the maximum with 0).  On the extended reals
  a change of float format is the identity and a matrix product into a zero accumulator is the plain sum over the
  contracted axis, so entry (p, q) of the written block is
      (∑ k, a (p, k) * wl (k, q)) + (∑ k, x (p, k) * wr (k, q)) + b q        (maximum with 0 in the first layer).
-/
import proofs.«178897_j10419590660202_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Fold

open Cert.KernelIdeal Cert.KernelIdeal.Gen Idealize.ShloMosaic

/-- Row `j 0`, column `k`, of a 5000 × 64 block: where the left factor of entry `j`'s `k`-th product sits. -/
abbrev lrow (j : S5000x64.Idx) (k : Fin 64) : S5000x64.Idx := fun a => match a with
  | ⟨0, _⟩ => ⟨(j 0).val, (j 0).isLt⟩
  | ⟨1, _⟩ => ⟨k.val, k.isLt⟩
/-- Row `k`, column `j 1`, of a 64 × 64 weight matrix: where the right factor sits. -/
abbrev wcol (j : S5000x64.Idx) (k : Fin 64) : S64x64.Idx := fun a => match a with
  | ⟨0, _⟩ => ⟨k.val, k.isLt⟩
  | ⟨1, _⟩ => ⟨(j 1).val, (j 1).isLt⟩
/-- Entry `j 1` of the bias. -/
abbrev bcol (j : S5000x64.Idx) : S64.Idx := fun a => match a with
  | ⟨0, _⟩ => ⟨(j 1).val, (j 1).isLt⟩

theorem blk_lhs_0 (j : S5000x64.Idx) (q : dot_S5000x64_S64x64_S5000x64_1_0_0_1_n_n.contr.Idx) :
    (dot_S5000x64_S64x64_S5000x64_1_0_0_1_n_n.lhsIdx j q 0).val = (j 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blk_lhs_1 (j : S5000x64.Idx) (q : dot_S5000x64_S64x64_S5000x64_1_0_0_1_n_n.contr.Idx) :
    (dot_S5000x64_S64x64_S5000x64_1_0_0_1_n_n.lhsIdx j q 1).val = (q ⟨0, by decide⟩).val :=
  dot_S5000x64_S64x64_S5000x64_1_0_0_1_n_n.lhsIdx_val_of_single rfl j q
theorem blk_rhs_0 (j : S5000x64.Idx) (q : dot_S5000x64_S64x64_S5000x64_1_0_0_1_n_n.contr.Idx) :
    (dot_S5000x64_S64x64_S5000x64_1_0_0_1_n_n.rhsIdx j q 0).val = (q ⟨0, by decide⟩).val :=
  dot_S5000x64_S64x64_S5000x64_1_0_0_1_n_n.rhsIdx_val_of_single rfl j q
theorem blk_rhs_1 (j : S5000x64.Idx) (q : dot_S5000x64_S64x64_S5000x64_1_0_0_1_n_n.contr.Idx) :
    (dot_S5000x64_S64x64_S5000x64_1_0_0_1_n_n.rhsIdx j q 1).val = (j 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's matrix product into a zero accumulator, at entry `j`: the sum over the 64 contracted positions. -/
theorem matmul_block_apply {φ₁ φ₂ : FTy} (l : FVec Ideal S5000x64 φ₁) (r : FVec Ideal S64x64 φ₂) (j : S5000x64.Idx) :
    matmul dot_S5000x64_S64x64_S5000x64_1_0_0_1_n_n none l r (constant S5000x64 .f32 0x00000000#32) j
      = ∑ k : Fin 64, l (lrow j k) * r (wcol j k) := by
  show FloatOps.matmul dot_S5000x64_S64x64_S5000x64_1_0_0_1_n_n none l r (constant S5000x64 .f32 0x00000000#32) j = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx j ((ValueIdx.contrEquiv1 dot_S5000x64_S64x64_S5000x64_1_0_0_1_n_n 64 rfl rfl).symm k) = lrow j k := funext fun a => Fin.ext (by
    match a with
    | ⟨0, _⟩ => exact blk_lhs_0 _ _
    | ⟨1, _⟩ => exact (blk_lhs_1 _ _).trans hk)
  have er : dot_S5000x64_S64x64_S5000x64_1_0_0_1_n_n.rhsIdx j ((ValueIdx.contrEquiv1 dot_S5000x64_S64x64_S5000x64_1_0_0_1_n_n 64 rfl rfl).symm k) = wcol j k := funext fun a => Fin.ext (by
    match a with
    | ⟨0, _⟩ => exact (blk_rhs_0 _ _).trans hk
    | ⟨1, _⟩ => exact blk_rhs_1 _ _)
  rw [el, er]

/-- Row 0, column `j 1`, of the bias once it has a leading unit axis. -/
abbrev brow (j : S5000x64.Idx) : S1x64.Idx := fun a => match a with
  | ⟨0, _⟩ => ⟨0, Nat.one_pos⟩
  | ⟨1, _⟩ => ⟨(j 1).val, (j 1).isLt⟩

/-- The bias, given a leading unit axis and repeated down the 5000 rows, read at entry `j`: its entry `j 1`. -/
theorem bias_block_apply (b : FVec Ideal S64 .f32) (j : S5000x64.Idx) :
    broadcastTo S5000x64 (shapeCast S1x64 b shapeCasts_S64_S1x64) broadcasts_S1x64_S5000x64 j = b (bcol j) := by
  have e : broadcastTo S5000x64 (shapeCast S1x64 b shapeCasts_S64_S1x64) broadcasts_S1x64_S5000x64 j
      = shapeCast S1x64 b shapeCasts_S64_S1x64 (brow j) :=
    broadcastTo_apply _ broadcasts_S1x64_S5000x64 j (brow j) (fun a => match a with
      | ⟨0, _⟩ => by show (0 : Nat) = if (1 : Nat) = 1 then 0 else _; rw [if_pos rfl]
      | ⟨1, _⟩ => by show (j 1).val = if (64 : Nat) = 1 then 0 else (j 1).val; rw [if_neg (by decide)])
  rw [e]
  refine (shapeCast_addUnit_apply ![64] b shapeCasts_S64_S1x64 (brow j)).trans ?_
  exact congrArg b (funext fun a => match a with | ⟨0, _⟩ => rfl)

/-- Entry `j` of the block the first layer's movie-side body writes. -/
theorem pay0_apply (a x : Vec Ideal S5000x64 .f32) (wl wr : Vec Ideal S64x64 .f32) (b : Vec Ideal S64 .f32) (j : S5000x64.Idx) :
    k0_pay1 (F := Ideal) a x wl wr b j
      = max (((∑ k : Fin 64, a (lrow j k) * wl (wcol j k)) + ∑ k : Fin 64, x (lrow j k) * wr (wcol j k)) + b (bcol j))
          (Ideal.ofBits .f32 0x00000000#32) := by
  unfold k0_pay1
  simp only [ValueIdx.maximumf_apply, ValueIdx.addf_apply, ValueIdx.broadcast_apply, matmul_block_apply, bias_block_apply,
    ValueIdx.truncf_apply, shapeCast_self]
  rfl

/-- Entry `j` of the block the first layer's user-side body writes: the same function. -/
theorem pay1_apply (a x : Vec Ideal S5000x64 .f32) (wl wr : Vec Ideal S64x64 .f32) (b : Vec Ideal S64 .f32) (j : S5000x64.Idx) :
    k1_pay1 (F := Ideal) a x wl wr b j
      = max (((∑ k : Fin 64, a (lrow j k) * wl (wcol j k)) + ∑ k : Fin 64, x (lrow j k) * wr (wcol j k)) + b (bcol j))
          (Ideal.ofBits .f32 0x00000000#32) := by
  unfold k1_pay1
  simp only [ValueIdx.maximumf_apply, ValueIdx.addf_apply, ValueIdx.broadcast_apply, matmul_block_apply, bias_block_apply,
    ValueIdx.truncf_apply, shapeCast_self]
  rfl

/-- Entry `j` of the block the second layer's movie-side body writes: no maximum. -/
theorem pay2_apply (a x : Vec Ideal S5000x64 .f32) (wl wr : Vec Ideal S64x64 .f32) (b : Vec Ideal S64 .f32) (j : S5000x64.Idx) :
    k2_pay1 (F := Ideal) a x wl wr b j
      = ((∑ k : Fin 64, a (lrow j k) * wl (wcol j k)) + ∑ k : Fin 64, x (lrow j k) * wr (wcol j k)) + b (bcol j) := by
  unfold k2_pay1
  simp only [ValueIdx.addf_apply, matmul_block_apply, bias_block_apply, ValueIdx.truncf_apply, shapeCast_self]

/-- Entry `j` of the block the second layer's user-side body writes: no maximum. -/
theorem pay3_apply (a x : Vec Ideal S5000x64 .f32) (wl wr : Vec Ideal S64x64 .f32) (b : Vec Ideal S64 .f32) (j : S5000x64.Idx) :
    k3_pay1 (F := Ideal) a x wl wr b j
      = ((∑ k : Fin 64, a (lrow j k) * wl (wcol j k)) + ∑ k : Fin 64, x (lrow j k) * wr (wcol j k)) + b (bcol j) := by
  unfold k3_pay1
  simp only [ValueIdx.addf_apply, matmul_block_apply, bias_block_apply, ValueIdx.truncf_apply, shapeCast_self]

end Cert.KernelIdeal.Fold

end
-- ==== Proof.Spec.lean ====
/-
  The combine step on whole arrays.

  For a destination array of n rows (n = 40000 movies or n = 200000 users): given the aggregated neighbour means
  `A` and the destination features `X` (both n × 64), weights `Wl`, `Wr` (64 × 64) and a bias `b`, entry (r, q) of
  the combined array is  (∑ k, A (r, k) * Wl (k, q)) + (∑ k, X (r, k) * Wr (k, q)) + b q,  and the first layer takes
  the maximum of that with 0.  The index constructors are spelt coordinate by coordinate so that they coincide
  with the ones the reference's matrix products are read with.
-/
import proofs.«178897_j10419590660202_1_alg».proof.KernelIdeal
import Idealize.ShloMosaic.PureOps.Ideal

noncomputable section

namespace Cert.KernelIdeal.Fold

open Cert.KernelIdeal Idealize.ShloMosaic

/-- (r, k): row of `i`, column `k`, in an array of 40000 rows. -/
abbrev arowM (i : S40000x64.Idx) (k : Fin 64) : S40000x64.Idx := fun a => match a with
  | ⟨0, _⟩ => ⟨(i 0).val, (i 0).isLt⟩
  | ⟨1, _⟩ => ⟨k.val, k.isLt⟩
/-- (k, q): row `k`, column of `i`, in a weight matrix. -/
abbrev wcolM (i : S40000x64.Idx) (k : Fin 64) : S64x64.Idx := fun a => match a with
  | ⟨0, _⟩ => ⟨k.val, k.isLt⟩
  | ⟨1, _⟩ => ⟨(i 1).val, (i 1).isLt⟩
/-- q: the column of `i`, in the bias. -/
abbrev bcolM (i : S40000x64.Idx) : S64.Idx := fun a => match a with
  | ⟨0, _⟩ => ⟨(i 1).val, (i 1).isLt⟩

/-- (r, k) in an array of 200000 rows. -/
abbrev arowU (i : S200000x64.Idx) (k : Fin 64) : S200000x64.Idx := fun a => match a with
  | ⟨0, _⟩ => ⟨(i 0).val, (i 0).isLt⟩
  | ⟨1, _⟩ => ⟨k.val, k.isLt⟩
abbrev wcolU (i : S200000x64.Idx) (k : Fin 64) : S64x64.Idx := fun a => match a with
  | ⟨0, _⟩ => ⟨k.val, k.isLt⟩
  | ⟨1, _⟩ => ⟨(i 1).val, (i 1).isLt⟩
abbrev bcolU (i : S200000x64.Idx) : S64.Idx := fun a => match a with
  | ⟨0, _⟩ => ⟨(i 1).val, (i 1).isLt⟩

/-- The movies' combine step without the maximum. -/
def combM (A X : S40000x64.Idx → EReal) (Wl Wr : S64x64.Idx → EReal) (b : S64.Idx → EReal) : S40000x64.Idx → EReal :=
  fun i => ((∑ k : Fin 64, A (arowM i k) * Wl (wcolM i k)) + ∑ k : Fin 64, X (arowM i k) * Wr (wcolM i k)) + b (bcolM i)
/-- The movies' first-layer combine step: the maximum with 0. -/
def combReluM (A X : S40000x64.Idx → EReal) (Wl Wr : S64x64.Idx → EReal) (b : S64.Idx → EReal) : S40000x64.Idx → EReal :=
  fun i => max (combM A X Wl Wr b i) (Ideal.ofBits .f32 0x00000000#32)
/-- The users' combine step without the maximum. -/
def combU (A X : S200000x64.Idx → EReal) (Wl Wr : S64x64.Idx → EReal) (b : S64.Idx → EReal) : S200000x64.Idx → EReal :=
  fun i => ((∑ k : Fin 64, A (arowU i k) * Wl (wcolU i k)) + ∑ k : Fin 64, X (arowU i k) * Wr (wcolU i k)) + b (bcolU i)
/-- The users' first-layer combine step: the maximum with 0. -/
def combReluU (A X : S200000x64.Idx → EReal) (Wl Wr : S64x64.Idx → EReal) (b : S64.Idx → EReal) : S200000x64.Idx → EReal :=
  fun i => max (combU A X Wl Wr b i) (Ideal.ofBits .f32 0x00000000#32)

end Cert.KernelIdeal.Fold

end
-- ==== Proof.Region3.lean ====
/-
  Region 3: the users' second-layer embeddings, as one function of the arrays the region finds on entry.

  The grid has 40 points; point t holds rows 5000·t … 5000·t + 4999 of the aggregated means and of the destination
  features, the whole of both weight matrices and of the bias, and writes back rows 5000·t … 5000·t + 4999 of the
  output.  Each written block is the restriction of ONE whole-array function (the combine step of the entry arrays)
  to those rows, and the 40 row blocks tile the 200000 rows, so the output array ends holding that function.
-/
import proofs.«178897_j10419590660202_1_alg».proof.Proof.Gen.KernelIdeal.Frame
import proofs.«178897_j10419590660202_1_alg».proof.Proof.Payload
import proofs.«178897_j10419590660202_1_alg».proof.Proof.Spec
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero2_3 : (![0, 0] : Fin 2 → Nat) = fun _ => 0 := funext fun a => by fin_cases a <;> rfl
theorem zero1_3 : (![0] : Fin 1 → Nat) = fun _ => 0 := funext fun a => by fin_cases a; rfl

/-- The index maps over the grid: the two row-blocked inputs move with the output's row block and sit at column
    block 0; the weights and the bias are always block 0; the output's row block stays below 40. -/
theorem idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (1 : Fin 2) = 0 ∧ win3_5.index t (0 : Fin 2) ≤ 39 :=
  (by decide +kernel : ∀ t : Fin grid3.N, _)

/-- Every row block is some point's. -/
theorem onto3 : ∀ q : Fin 40, ∃ t : Fin cfg3.N, win3_5.index t (0 : Fin 2) = q.val :=
  (by decide +kernel : ∀ q : Fin 40, ∃ t : Fin grid3.N, win3_5.index t (0 : Fin 2) = q.val)

/-- The aggregated means' block at point `t`: entry `y` is the array's entry in row 5000·(row block) + y₀. -/
theorem blk3_A (c : Dev nD) (t : Fin cfg3.N) (y : S5000x64.Idx) (i : S200000x64.Idx)
    (h0 : (i 0).val = win3_5.index t (0 : Fin 2) * 5000 + (y 0).val) (h1 : (i 1).val = (y 1).val) :
    (iblk3 V c 0 t : Vec Ideal S5000x64 .f32) y = (V c main_v77 : S200000x64.Idx → EReal) i := by
  obtain ⟨e0, e1, -⟩ := idx3 t
  unfold iblk3
  rw [View.read_apply]
  show (V c main_v77 : S200000x64.Idx → EReal) _ = _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The destination features' block at point `t`, likewise. -/
theorem blk3_X (c : Dev nD) (t : Fin cfg3.N) (y : S5000x64.Idx) (i : S200000x64.Idx)
    (h0 : (i 0).val = win3_5.index t (0 : Fin 2) * 5000 + (y 0).val) (h1 : (i 1).val = (y 1).val) :
    (iblk3 V c 1 t : Vec Ideal S5000x64 .f32) y = (V c main_v52 : S200000x64.Idx → EReal) i := by
  obtain ⟨-, -, e0, e1, -⟩ := idx3 t
  unfold iblk3
  rw [View.read_apply]
  show (V c main_v52 : S200000x64.Idx → EReal) _ = _
  congr 1
  funext a
  apply Fin.ext
  match a with
  | ⟨0, _⟩ => show win3_1.index t (0 : Fin 2) * 5000 + 1 * (y 0).val = (i 0).val; rw [e0, h0]; omega
  | ⟨1, _⟩ => show win3_1.index t (1 : Fin 2) * 64 + 1 * (y 1).val = (i 1).val; rw [e1, h1]; omega

/-- The left weight matrix's block is the matrix. -/
theorem blk3_Wl (c : Dev nD) (t : Fin cfg3.N) (y i : S64x64.Idx)
    (h0 : (i 0).val = (y 0).val) (h1 : (i 1).val = (y 1).val) :
    (iblk3 V c 2 t : Vec Ideal S64x64 .f32) y = (V c main_arg14 : S64x64.Idx → EReal) i := by
  obtain ⟨-, -, -, -, e0, e1, -⟩ := idx3 t
  unfold iblk3
  rw [View.read_apply]
  show (V c main_arg14 : S64x64.Idx → EReal) _ = _
  congr 1
  funext a
  apply Fin.ext
  match a with
  | ⟨0, _⟩ => show win3_2.index t (0 : Fin 2) * 64 + 1 * (y 0).val = (i 0).val; rw [e0, h0]; omega
  | ⟨1, _⟩ => show win3_2.index t (1 : Fin 2) * 64 + 1 * (y 1).val = (i 1).val; rw [e1, h1]; omega

/-- The right weight matrix's block is the matrix. -/
theorem blk3_Wr (c : Dev nD) (t : Fin cfg3.N) (y i : S64x64.Idx)
    (h0 : (i 0).val = (y 0).val) (h1 : (i 1).val = (y 1).val) :
    (iblk3 V c 3 t : Vec Ideal S64x64 .f32) y = (V c main_arg15 : S64x64.Idx → EReal) i := by
  obtain ⟨-, -, -, -, -, -, e0, e1, -⟩ := idx3 t
  unfold iblk3
  rw [View.read_apply]
  show (V c main_arg15 : S64x64.Idx → EReal) _ = _
  congr 1
  funext a
  apply Fin.ext
  match a with
  | ⟨0, _⟩ => show win3_3.index t (0 : Fin 2) * 64 + 1 * (y 0).val = (i 0).val; rw [e0, h0]; omega
  | ⟨1, _⟩ => show win3_3.index t (1 : Fin 2) * 64 + 1 * (y 1).val = (i 1).val; rw [e1, h1]; omega

/-- The bias's block is the bias. -/
theorem blk3_b (c : Dev nD) (t : Fin cfg3.N) (y i : S64.Idx) (h0 : (i 0).val = (y 0).val) :
    (iblk3 V c 4 t : Vec Ideal S64 .f32) y = (V c main_arg19 : S64.Idx → EReal) i := by
  obtain ⟨-, -, -, -, -, -, -, -, e0, -⟩ := idx3 t
  unfold iblk3
  rw [View.read_apply]
  show (V c main_arg19 : S64.Idx → EReal) _ = _
  congr 1
  funext a
  apply Fin.ext
  match a with
  | ⟨0, _⟩ => show win3_4.index t (0 : Fin 1) * 64 + 1 * (y 0).val = (i 0).val; rw [e0, h0]; omega

/-- What point `t` writes back is its row block of the combine step of the entry arrays. -/
theorem flushed3 (c : Dev nD) (t : Fin cfg3.N) :
    (dat3 V c).flushed 5 t = ((cfg3.win 5).blk t).view.read (Elt Ideal)
      (combU (V c main_v77) (V c main_v52) (V c main_arg14) (V c main_arg15) (V c main_arg19)) := by
  show (cfg3.win 5).cut (grid3.coords t) ((dat3 V c).after 5 t) = _
  rw [after3_5]
  unfold out3_5
  rw [View.canon_unit_zero zero2_3]
  simp only [View.ld_unit_zero (S := S5000x64) zero2_3, View.ld_unit_zero (S := S64x64) zero2_3, View.ld_unit_zero (S := S64) zero1_3]
  obtain ⟨-, -, -, -, -, -, -, -, -, e51, -⟩ := idx3 t
  funext j
  show k3_pay1 (F := Ideal) (iblk3 V c 0 t) (iblk3 V c 1 t) (iblk3 V c 2 t) (iblk3 V c 3 t) (iblk3 V c 4 t) j
    = combU (V c main_v77) (V c main_v52) (V c main_arg14) (V c main_arg15) (V c main_arg19) (((cfg3.win 5).blk t).view.emb j)
  refine (pay3_apply _ _ _ _ _ j).trans ?_
  have r0 : ((((cfg3.win 5).blk t).view.emb j : S200000x64.Idx) 0).val = win3_5.index t (0 : Fin 2) * 5000 + (j 0).val := by
    show win3_5.index t (0 : Fin 2) * 5000 + 1 * (j 0).val = _; omega
  have r1 : ((((cfg3.win 5).blk t).view.emb j : S200000x64.Idx) 1).val = (j 1).val := by
    show win3_5.index t (1 : Fin 2) * 64 + 1 * (j 1).val = _; rw [e51]; omega
  have hA : ∀ k : Fin 64, (iblk3 V c 0 t : Vec Ideal S5000x64 .f32) (lrow j k)
      = (V c main_v77 : S200000x64.Idx → EReal) (arowU (((cfg3.win 5).blk t).view.emb j) k) :=
    fun k => blk3_A V c t (lrow j k) _ r0 rfl
  have hX : ∀ k : Fin 64, (iblk3 V c 1 t : Vec Ideal S5000x64 .f32) (lrow j k)
      = (V c main_v52 : S200000x64.Idx → EReal) (arowU (((cfg3.win 5).blk t).view.emb j) k) :=
    fun k => blk3_X V c t (lrow j k) _ r0 rfl
  have hWl : ∀ k : Fin 64, (iblk3 V c 2 t : Vec Ideal S64x64 .f32) (wcol j k)
      = (V c main_arg14 : S64x64.Idx → EReal) (wcolU (((cfg3.win 5).blk t).view.emb j) k) :=
    fun k => blk3_Wl V c t (wcol j k) _ rfl r1
  have hWr : ∀ k : Fin 64, (iblk3 V c 3 t : Vec Ideal S64x64 .f32) (wcol j k)
      = (V c main_arg15 : S64x64.Idx → EReal) (wcolU (((cfg3.win 5).blk t).view.emb j) k) :=
    fun k => blk3_Wr V c t (wcol j k) _ rfl r1
  have hb : (iblk3 V c 4 t : Vec Ideal S64 .f32) (bcol j)
      = (V c main_arg19 : S64.Idx → EReal) (bcolU (((cfg3.win 5).blk t).view.emb j)) :=
    blk3_b V c t (bcol j) _ r1
  unfold combU
  simp only [hA, hX, hWl, hWr, hb]

/-- An index of the output array is in point `t`'s block iff each coordinate is in the block's range. -/
theorem mem_blk3 (t : Fin cfg3.N) (i : S200000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v78).slice (win3_5.rect t)).set ↔ _
  rw [View.set_slice_whole, Rect.mem_set_unit]
  exact Iff.rfl

/-- The output array after the region: the combine step of the arrays the region found (row r is written by point r / 5000). -/
theorem arr3 (c : Dev nD) : (dat3 V c).arrAt 5 cfg3.N
    = combU (V c main_v77) (V c main_v52) (V c main_arg14) (V c main_arg15) (V c main_arg19) :=
  (dat3 V c).arrAt_eq_of_cover 5 _ (fun t _ => flushed3 V c t) fun (i : S200000x64.Idx) => by
    have hi0 : (i 0).val < 200000 := (i 0).isLt
    have hi1 : (i 1).val < 64 := (i 1).isLt
    obtain ⟨t, ht⟩ := onto3 ⟨(i 0).val / 5000, by omega⟩
    obtain ⟨-, -, -, -, -, -, -, -, -, e51, -⟩ := idx3 t
    refine ⟨t, flush3_5 t, ?_⟩
    rw [mem_blk3]
    intro a
    match a with
    | ⟨0, _⟩ =>
      show win3_5.index t (0 : Fin 2) * 5000 ≤ (i 0).val ∧ (i 0).val < win3_5.index t (0 : Fin 2) * 5000 + 5000
      rw [ht]
      show (i 0).val / 5000 * 5000 ≤ (i 0).val ∧ (i 0).val < (i 0).val / 5000 * 5000 + 5000
      omega
    | ⟨1, _⟩ =>
      show win3_5.index t (1 : Fin 2) * 64 ≤ (i 1).val ∧ (i 1).val < win3_5.index t (1 : Fin 2) * 64 + 64
      rw [e51]; omega

end Cert.KernelIdeal.Fold

end
-- ==== Proof.Region2.lean ====
/-
  Region 2: the movies' second-layer embeddings, as one function of the arrays the region finds on entry.

  The grid has 8 points; point t holds rows 5000·t … 5000·t + 4999 of the aggregated means and of the destination
  features, the whole of both weight matrices and of the bias, and writes back rows 5000·t … 5000·t + 4999 of the
  output.  Each written block is the restriction of ONE whole-array function (the combine step of the entry arrays)
  to those rows, and the 8 row blocks tile the 40000 rows, so the output array ends holding that function.
-/
import proofs.«178897_j10419590660202_1_alg».proof.Proof.Gen.KernelIdeal.Frame
import proofs.«178897_j10419590660202_1_alg».proof.Proof.Payload
import proofs.«178897_j10419590660202_1_alg».proof.Proof.Spec
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero2_2 : (![0, 0] : Fin 2 → Nat) = fun _ => 0 := funext fun a => by fin_cases a <;> rfl
theorem zero1_2 : (![0] : Fin 1 → Nat) = fun _ => 0 := funext fun a => by fin_cases a; rfl

/-- The index maps over the grid: the two row-blocked inputs move with the output's row block and sit at column
    block 0; the weights and the bias are always block 0; the output's row block stays below 8. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 ∧ win2_5.index t (0 : Fin 2) ≤ 7 :=
  (by decide +kernel : ∀ t : Fin grid2.N, _)

/-- Every row block is some point's. -/
theorem onto2 : ∀ q : Fin 8, ∃ t : Fin cfg2.N, win2_5.index t (0 : Fin 2) = q.val :=
  (by decide +kernel : ∀ q : Fin 8, ∃ t : Fin grid2.N, win2_5.index t (0 : Fin 2) = q.val)

/-- The aggregated means' block at point `t`: entry `y` is the array's entry in row 5000·(row block) + y₀. -/
theorem blk2_A (c : Dev nD) (t : Fin cfg2.N) (y : S5000x64.Idx) (i : S40000x64.Idx)
    (h0 : (i 0).val = win2_5.index t (0 : Fin 2) * 5000 + (y 0).val) (h1 : (i 1).val = (y 1).val) :
    (iblk2 V c 0 t : Vec Ideal S5000x64 .f32) y = (V c main_v64 : S40000x64.Idx → EReal) i := by
  obtain ⟨e0, e1, -⟩ := idx2 t
  unfold iblk2
  rw [View.read_apply]
  show (V c main_v64 : S40000x64.Idx → EReal) _ = _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- The destination features' block at point `t`, likewise. -/
theorem blk2_X (c : Dev nD) (t : Fin cfg2.N) (y : S5000x64.Idx) (i : S40000x64.Idx)
    (h0 : (i 0).val = win2_5.index t (0 : Fin 2) * 5000 + (y 0).val) (h1 : (i 1).val = (y 1).val) :
    (iblk2 V c 1 t : Vec Ideal S5000x64 .f32) y = (V c main_v39 : S40000x64.Idx → EReal) i := by
  obtain ⟨-, -, e0, e1, -⟩ := idx2 t
  unfold iblk2
  rw [View.read_apply]
  show (V c main_v39 : S40000x64.Idx → EReal) _ = _
  congr 1
  funext a
  apply Fin.ext
  match a with
  | ⟨0, _⟩ => show win2_1.index t (0 : Fin 2) * 5000 + 1 * (y 0).val = (i 0).val; rw [e0, h0]; omega
  | ⟨1, _⟩ => show win2_1.index t (1 : Fin 2) * 64 + 1 * (y 1).val = (i 1).val; rw [e1, h1]; omega

/-- The left weight matrix's block is the matrix. -/
theorem blk2_Wl (c : Dev nD) (t : Fin cfg2.N) (y i : S64x64.Idx)
    (h0 : (i 0).val = (y 0).val) (h1 : (i 1).val = (y 1).val) :
    (iblk2 V c 2 t : Vec Ideal S64x64 .f32) y = (V c main_arg12 : S64x64.Idx → EReal) i := by
  obtain ⟨-, -, -, -, e0, e1, -⟩ := idx2 t
  unfold iblk2
  rw [View.read_apply]
  show (V c main_arg12 : S64x64.Idx → EReal) _ = _
  congr 1
  funext a
  apply Fin.ext
  match a with
  | ⟨0, _⟩ => show win2_2.index t (0 : Fin 2) * 64 + 1 * (y 0).val = (i 0).val; rw [e0, h0]; omega
  | ⟨1, _⟩ => show win2_2.index t (1 : Fin 2) * 64 + 1 * (y 1).val = (i 1).val; rw [e1, h1]; omega

/-- The right weight matrix's block is the matrix. -/
theorem blk2_Wr (c : Dev nD) (t : Fin cfg2.N) (y i : S64x64.Idx)
    (h0 : (i 0).val = (y 0).val) (h1 : (i 1).val = (y 1).val) :
    (iblk2 V c 3 t : Vec Ideal S64x64 .f32) y = (V c main_arg13 : S64x64.Idx → EReal) i := by
  obtain ⟨-, -, -, -, -, -, e0, e1, -⟩ := idx2 t
  unfold iblk2
  rw [View.read_apply]
  show (V c main_arg13 : S64x64.Idx → EReal) _ = _
  congr 1
  funext a
  apply Fin.ext
  match a with
  | ⟨0, _⟩ => show win2_3.index t (0 : Fin 2) * 64 + 1 * (y 0).val = (i 0).val; rw [e0, h0]; omega
  | ⟨1, _⟩ => show win2_3.index t (1 : Fin 2) * 64 + 1 * (y 1).val = (i 1).val; rw [e1, h1]; omega

/-- The bias's block is the bias. -/
theorem blk2_b (c : Dev nD) (t : Fin cfg2.N) (y i : S64.Idx) (h0 : (i 0).val = (y 0).val) :
    (iblk2 V c 4 t : Vec Ideal S64 .f32) y = (V c main_arg18 : S64.Idx → EReal) i := by
  obtain ⟨-, -, -, -, -, -, -, -, e0, -⟩ := idx2 t
  unfold iblk2
  rw [View.read_apply]
  show (V c main_arg18 : S64.Idx → EReal) _ = _
  congr 1
  funext a
  apply Fin.ext
  match a with
  | ⟨0, _⟩ => show win2_4.index t (0 : Fin 1) * 64 + 1 * (y 0).val = (i 0).val; rw [e0, h0]; omega

/-- What point `t` writes back is its row block of the combine step of the entry arrays. -/
theorem flushed2 (c : Dev nD) (t : Fin cfg2.N) :
    (dat2 V c).flushed 5 t = ((cfg2.win 5).blk t).view.read (Elt Ideal)
      (combM (V c main_v64) (V c main_v39) (V c main_arg12) (V c main_arg13) (V c main_arg18)) := by
  show (cfg2.win 5).cut (grid2.coords t) ((dat2 V c).after 5 t) = _
  rw [after2_5]
  unfold out2_5
  rw [View.canon_unit_zero zero2_2]
  simp only [View.ld_unit_zero (S := S5000x64) zero2_2, View.ld_unit_zero (S := S64x64) zero2_2, View.ld_unit_zero (S := S64) zero1_2]
  obtain ⟨-, -, -, -, -, -, -, -, -, e51, -⟩ := idx2 t
  funext j
  show k2_pay1 (F := Ideal) (iblk2 V c 0 t) (iblk2 V c 1 t) (iblk2 V c 2 t) (iblk2 V c 3 t) (iblk2 V c 4 t) j
    = combM (V c main_v64) (V c main_v39) (V c main_arg12) (V c main_arg13) (V c main_arg18) (((cfg2.win 5).blk t).view.emb j)
  refine (pay2_apply _ _ _ _ _ j).trans ?_
  have r0 : ((((cfg2.win 5).blk t).view.emb j : S40000x64.Idx) 0).val = win2_5.index t (0 : Fin 2) * 5000 + (j 0).val := by
    show win2_5.index t (0 : Fin 2) * 5000 + 1 * (j 0).val = _; omega
  have r1 : ((((cfg2.win 5).blk t).view.emb j : S40000x64.Idx) 1).val = (j 1).val := by
    show win2_5.index t (1 : Fin 2) * 64 + 1 * (j 1).val = _; rw [e51]; omega
  have hA : ∀ k : Fin 64, (iblk2 V c 0 t : Vec Ideal S5000x64 .f32) (lrow j k)
      = (V c main_v64 : S40000x64.Idx → EReal) (arowM (((cfg2.win 5).blk t).view.emb j) k) :=
    fun k => blk2_A V c t (lrow j k) _ r0 rfl
  have hX : ∀ k : Fin 64, (iblk2 V c 1 t : Vec Ideal S5000x64 .f32) (lrow j k)
      = (V c main_v39 : S40000x64.Idx → EReal) (arowM (((cfg2.win 5).blk t).view.emb j) k) :=
    fun k => blk2_X V c t (lrow j k) _ r0 rfl
  have hWl : ∀ k : Fin 64, (iblk2 V c 2 t : Vec Ideal S64x64 .f32) (wcol j k)
      = (V c main_arg12 : S64x64.Idx → EReal) (wcolM (((cfg2.win 5).blk t).view.emb j) k) :=
    fun k => blk2_Wl V c t (wcol j k) _ rfl r1
  have hWr : ∀ k : Fin 64, (iblk2 V c 3 t : Vec Ideal S64x64 .f32) (wcol j k)
      = (V c main_arg13 : S64x64.Idx → EReal) (wcolM (((cfg2.win 5).blk t).view.emb j) k) :=
    fun k => blk2_Wr V c t (wcol j k) _ rfl r1
  have hb : (iblk2 V c 4 t : Vec Ideal S64 .f32) (bcol j)
      = (V c main_arg18 : S64.Idx → EReal) (bcolM (((cfg2.win 5).blk t).view.emb j)) :=
    blk2_b V c t (bcol j) _ r1
  unfold combM
  simp only [hA, hX, hWl, hWr, hb]

/-- An index of the output array is in point `t`'s block iff each coordinate is in the block's range. -/
theorem mem_blk2 (t : Fin cfg2.N) (i : S40000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v65).slice (win2_5.rect t)).set ↔ _
  rw [View.set_slice_whole, Rect.mem_set_unit]
  exact Iff.rfl

/-- The output array after the region: the combine step of the arrays the region found (row r is written by point r / 5000). -/
theorem arr2 (c : Dev nD) : (dat2 V c).arrAt 5 cfg2.N
    = combM (V c main_v64) (V c main_v39) (V c main_arg12) (V c main_arg13) (V c main_arg18) :=
  (dat2 V c).arrAt_eq_of_cover 5 _ (fun t _ => flushed2 V c t) fun (i : S40000x64.Idx) => by
    have hi0 : (i 0).val < 40000 := (i 0).isLt
    have hi1 : (i 1).val < 64 := (i 1).isLt
    obtain ⟨t, ht⟩ := onto2 ⟨(i 0).val / 5000, by omega⟩
    obtain ⟨-, -, -, -, -, -, -, -, -, e51, -⟩ := idx2 t
    refine ⟨t, flush2_5 t, ?_⟩
    rw [mem_blk2]
    intro a
    match a with
    | ⟨0, _⟩ =>
      show win2_5.index t (0 : Fin 2) * 5000 ≤ (i 0).val ∧ (i 0).val < win2_5.index t (0 : Fin 2) * 5000 + 5000
      rw [ht]
      show (i 0).val / 5000 * 5000 ≤ (i 0).val ∧ (i 0).val < (i 0).val / 5000 * 5000 + 5000
      omega
    | ⟨1, _⟩ =>
      show win2_5.index t (1 : Fin 2) * 64 ≤ (i 1).val ∧ (i 1).val < win2_5.index t (1 : Fin 2) * 64 + 64
      rw [e51]; omega

end Cert.KernelIdeal.Fold

end
-- ==== Proof.Region1.lean ====
/-
  Region 1: the users' first-layer embeddings, as one function of the arrays the region finds on entry.

  The grid has 40 points; point t holds rows 5000·t … 5000·t + 4999 of the aggregated means and of the destination
  features, the whole of both weight matrices and of the bias, and writes back rows 5000·t … 5000·t + 4999 of the
  output.  Each written block is the restriction of ONE whole-array function (the combine step of the entry arrays)
  to those rows, and the 40 row blocks tile the 200000 rows, so the output array ends holding that function.
-/
import proofs.«178897_j10419590660202_1_alg».proof.Proof.Gen.KernelIdeal.Frame
import proofs.«178897_j10419590660202_1_alg».proof.Proof.Payload
import proofs.«178897_j10419590660202_1_alg».proof.Proof.Spec
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a; rfl

/-- The index maps over the grid: the two row-blocked inputs move with the output's row block and sit at column
    block 0; the weights and the bias are always block 0; the output's row block stays below 40. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 39 :=
  (by decide +kernel : ∀ t : Fin grid1.N, _)

/-- Every row block is some point's. -/
theorem onto1 : ∀ q : Fin 40, ∃ t : Fin cfg1.N, win1_5.index t (0 : Fin 2) = q.val :=
  (by decide +kernel : ∀ q : Fin 40, ∃ t : Fin grid1.N, win1_5.index t (0 : Fin 2) = q.val)

/-- The aggregated means' block at point `t`: entry `y` is the array's entry in row 5000·(row block) + y₀. -/
theorem blk1_A (c : Dev nD) (t : Fin cfg1.N) (y : S5000x64.Idx) (i : S200000x64.Idx)
    (h0 : (i 0).val = win1_5.index t (0 : Fin 2) * 5000 + (y 0).val) (h1 : (i 1).val = (y 1).val) :
    (iblk1 V c 0 t : Vec Ideal S5000x64 .f32) y = (V c main_v51 : S200000x64.Idx → EReal) i := by
  obtain ⟨e0, e1, -⟩ := idx1 t
  unfold iblk1
  rw [View.read_apply]
  show (V c main_v51 : S200000x64.Idx → EReal) _ = _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The destination features' block at point `t`, likewise. -/
theorem blk1_X (c : Dev nD) (t : Fin cfg1.N) (y : S5000x64.Idx) (i : S200000x64.Idx)
    (h0 : (i 0).val = win1_5.index t (0 : Fin 2) * 5000 + (y 0).val) (h1 : (i 1).val = (y 1).val) :
    (iblk1 V c 1 t : Vec Ideal S5000x64 .f32) y = (V c main_v6 : S200000x64.Idx → EReal) i := by
  obtain ⟨-, -, e0, e1, -⟩ := idx1 t
  unfold iblk1
  rw [View.read_apply]
  show (V c main_v6 : S200000x64.Idx → EReal) _ = _
  congr 1
  funext a
  apply Fin.ext
  match a with
  | ⟨0, _⟩ => show win1_1.index t (0 : Fin 2) * 5000 + 1 * (y 0).val = (i 0).val; rw [e0, h0]; omega
  | ⟨1, _⟩ => show win1_1.index t (1 : Fin 2) * 64 + 1 * (y 1).val = (i 1).val; rw [e1, h1]; omega

/-- The left weight matrix's block is the matrix. -/
theorem blk1_Wl (c : Dev nD) (t : Fin cfg1.N) (y i : S64x64.Idx)
    (h0 : (i 0).val = (y 0).val) (h1 : (i 1).val = (y 1).val) :
    (iblk1 V c 2 t : Vec Ideal S64x64 .f32) y = (V c main_arg10 : S64x64.Idx → EReal) i := by
  obtain ⟨-, -, -, -, e0, e1, -⟩ := idx1 t
  unfold iblk1
  rw [View.read_apply]
  show (V c main_arg10 : S64x64.Idx → EReal) _ = _
  congr 1
  funext a
  apply Fin.ext
  match a with
  | ⟨0, _⟩ => show win1_2.index t (0 : Fin 2) * 64 + 1 * (y 0).val = (i 0).val; rw [e0, h0]; omega
  | ⟨1, _⟩ => show win1_2.index t (1 : Fin 2) * 64 + 1 * (y 1).val = (i 1).val; rw [e1, h1]; omega

/-- The right weight matrix's block is the matrix. -/
theorem blk1_Wr (c : Dev nD) (t : Fin cfg1.N) (y i : S64x64.Idx)
    (h0 : (i 0).val = (y 0).val) (h1 : (i 1).val = (y 1).val) :
    (iblk1 V c 3 t : Vec Ideal S64x64 .f32) y = (V c main_arg11 : S64x64.Idx → EReal) i := by
  obtain ⟨-, -, -, -, -, -, e0, e1, -⟩ := idx1 t
  unfold iblk1
  rw [View.read_apply]
  show (V c main_arg11 : S64x64.Idx → EReal) _ = _
  congr 1
  funext a
  apply Fin.ext
  match a with
  | ⟨0, _⟩ => show win1_3.index t (0 : Fin 2) * 64 + 1 * (y 0).val = (i 0).val; rw [e0, h0]; omega
  | ⟨1, _⟩ => show win1_3.index t (1 : Fin 2) * 64 + 1 * (y 1).val = (i 1).val; rw [e1, h1]; omega

/-- The bias's block is the bias. -/
theorem blk1_b (c : Dev nD) (t : Fin cfg1.N) (y i : S64.Idx) (h0 : (i 0).val = (y 0).val) :
    (iblk1 V c 4 t : Vec Ideal S64 .f32) y = (V c main_arg17 : S64.Idx → EReal) i := by
  obtain ⟨-, -, -, -, -, -, -, -, e0, -⟩ := idx1 t
  unfold iblk1
  rw [View.read_apply]
  show (V c main_arg17 : S64.Idx → EReal) _ = _
  congr 1
  funext a
  apply Fin.ext
  match a with
  | ⟨0, _⟩ => show win1_4.index t (0 : Fin 1) * 64 + 1 * (y 0).val = (i 0).val; rw [e0, h0]; omega

/-- What point `t` writes back is its row block of the combine step of the entry arrays. -/
theorem flushed1 (c : Dev nD) (t : Fin cfg1.N) :
    (dat1 V c).flushed 5 t = ((cfg1.win 5).blk t).view.read (Elt Ideal)
      (combReluU (V c main_v51) (V c main_v6) (V c main_arg10) (V c main_arg11) (V c main_arg17)) := by
  show (cfg1.win 5).cut (grid1.coords t) ((dat1 V c).after 5 t) = _
  rw [after1_5]
  unfold out1_5
  rw [View.canon_unit_zero zero2_1]
  simp only [View.ld_unit_zero (S := S5000x64) zero2_1, View.ld_unit_zero (S := S64x64) zero2_1, View.ld_unit_zero (S := S64) zero1_1]
  obtain ⟨-, -, -, -, -, -, -, -, -, e51, -⟩ := idx1 t
  funext j
  show k1_pay1 (F := Ideal) (iblk1 V c 0 t) (iblk1 V c 1 t) (iblk1 V c 2 t) (iblk1 V c 3 t) (iblk1 V c 4 t) j
    = combReluU (V c main_v51) (V c main_v6) (V c main_arg10) (V c main_arg11) (V c main_arg17) (((cfg1.win 5).blk t).view.emb j)
  refine (pay1_apply _ _ _ _ _ j).trans ?_
  have r0 : ((((cfg1.win 5).blk t).view.emb j : S200000x64.Idx) 0).val = win1_5.index t (0 : Fin 2) * 5000 + (j 0).val := by
    show win1_5.index t (0 : Fin 2) * 5000 + 1 * (j 0).val = _; omega
  have r1 : ((((cfg1.win 5).blk t).view.emb j : S200000x64.Idx) 1).val = (j 1).val := by
    show win1_5.index t (1 : Fin 2) * 64 + 1 * (j 1).val = _; rw [e51]; omega
  have hA : ∀ k : Fin 64, (iblk1 V c 0 t : Vec Ideal S5000x64 .f32) (lrow j k)
      = (V c main_v51 : S200000x64.Idx → EReal) (arowU (((cfg1.win 5).blk t).view.emb j) k) :=
    fun k => blk1_A V c t (lrow j k) _ r0 rfl
  have hX : ∀ k : Fin 64, (iblk1 V c 1 t : Vec Ideal S5000x64 .f32) (lrow j k)
      = (V c main_v6 : S200000x64.Idx → EReal) (arowU (((cfg1.win 5).blk t).view.emb j) k) :=
    fun k => blk1_X V c t (lrow j k) _ r0 rfl
  have hWl : ∀ k : Fin 64, (iblk1 V c 2 t : Vec Ideal S64x64 .f32) (wcol j k)
      = (V c main_arg10 : S64x64.Idx → EReal) (wcolU (((cfg1.win 5).blk t).view.emb j) k) :=
    fun k => blk1_Wl V c t (wcol j k) _ rfl r1
  have hWr : ∀ k : Fin 64, (iblk1 V c 3 t : Vec Ideal S64x64 .f32) (wcol j k)
      = (V c main_arg11 : S64x64.Idx → EReal) (wcolU (((cfg1.win 5).blk t).view.emb j) k) :=
    fun k => blk1_Wr V c t (wcol j k) _ rfl r1
  have hb : (iblk1 V c 4 t : Vec Ideal S64 .f32) (bcol j)
      = (V c main_arg17 : S64.Idx → EReal) (bcolU (((cfg1.win 5).blk t).view.emb j)) :=
    blk1_b V c t (bcol j) _ r1
  unfold combReluU combU
  simp only [hA, hX, hWl, hWr, hb]

/-- An index of the output array is in point `t`'s block iff each coordinate is in the block's range. -/
theorem mem_blk1 (t : Fin cfg1.N) (i : S200000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v52).slice (win1_5.rect t)).set ↔ _
  rw [View.set_slice_whole, Rect.mem_set_unit]
  exact Iff.rfl

/-- The output array after the region: the combine step of the arrays the region found (row r is written by point r / 5000). -/
theorem arr1 (c : Dev nD) : (dat1 V c).arrAt 5 cfg1.N
    = combReluU (V c main_v51) (V c main_v6) (V c main_arg10) (V c main_arg11) (V c main_arg17) :=
  (dat1 V c).arrAt_eq_of_cover 5 _ (fun t _ => flushed1 V c t) fun (i : S200000x64.Idx) => by
    have hi0 : (i 0).val < 200000 := (i 0).isLt
    have hi1 : (i 1).val < 64 := (i 1).isLt
    obtain ⟨t, ht⟩ := onto1 ⟨(i 0).val / 5000, by omega⟩
    obtain ⟨-, -, -, -, -, -, -, -, -, e51, -⟩ := idx1 t
    refine ⟨t, flush1_5 t, ?_⟩
    rw [mem_blk1]
    intro a
    match a with
    | ⟨0, _⟩ =>
      show win1_5.index t (0 : Fin 2) * 5000 ≤ (i 0).val ∧ (i 0).val < win1_5.index t (0 : Fin 2) * 5000 + 5000
      rw [ht]
      show (i 0).val / 5000 * 5000 ≤ (i 0).val ∧ (i 0).val < (i 0).val / 5000 * 5000 + 5000
      omega
    | ⟨1, _⟩ =>
      show win1_5.index t (1 : Fin 2) * 64 ≤ (i 1).val ∧ (i 1).val < win1_5.index t (1 : Fin 2) * 64 + 64
      rw [e51]; omega

end Cert.KernelIdeal.Fold

end
-- ==== Proof.Region0.lean ====
/-
  Region 0: the movies' first-layer embeddings, as one function of the arrays the region finds on entry.

  The grid has 8 points; point t holds rows 5000·t … 5000·t + 4999 of the aggregated means and of the destination
  features, the whole of both weight matrices and of the bias, and writes back rows 5000·t … 5000·t + 4999 of the
  output.  Each written block is the restriction of ONE whole-array function (the combine step of the entry arrays)
  to those rows, and the 8 row blocks tile the 40000 rows, so the output array ends holding that function.
-/
import proofs.«178897_j10419590660202_1_alg».proof.Proof.Gen.KernelIdeal.Frame
import proofs.«178897_j10419590660202_1_alg».proof.Proof.Payload
import proofs.«178897_j10419590660202_1_alg».proof.Proof.Spec
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a; rfl

/-- The index maps over the grid: the two row-blocked inputs move with the output's row block and sit at column
    block 0; the weights and the bias are always block 0; the output's row block stays below 8. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 7 :=
  (by decide +kernel : ∀ t : Fin grid0.N, _)

/-- Every row block is some point's. -/
theorem onto0 : ∀ q : Fin 8, ∃ t : Fin cfg0.N, win0_5.index t (0 : Fin 2) = q.val :=
  (by decide +kernel : ∀ q : Fin 8, ∃ t : Fin grid0.N, win0_5.index t (0 : Fin 2) = q.val)

/-- The aggregated means' block at point `t`: entry `y` is the array's entry in row 5000·(row block) + y₀. -/
theorem blk0_A (c : Dev nD) (t : Fin cfg0.N) (y : S5000x64.Idx) (i : S40000x64.Idx)
    (h0 : (i 0).val = win0_5.index t (0 : Fin 2) * 5000 + (y 0).val) (h1 : (i 1).val = (y 1).val) :
    (iblk0 V c 0 t : Vec Ideal S5000x64 .f32) y = (V c main_v38 : S40000x64.Idx → EReal) i := by
  obtain ⟨e0, e1, -⟩ := idx0 t
  unfold iblk0
  rw [View.read_apply]
  show (V c main_v38 : S40000x64.Idx → EReal) _ = _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- The destination features' block at point `t`, likewise. -/
theorem blk0_X (c : Dev nD) (t : Fin cfg0.N) (y : S5000x64.Idx) (i : S40000x64.Idx)
    (h0 : (i 0).val = win0_5.index t (0 : Fin 2) * 5000 + (y 0).val) (h1 : (i 1).val = (y 1).val) :
    (iblk0 V c 1 t : Vec Ideal S5000x64 .f32) y = (V c main_v13 : S40000x64.Idx → EReal) i := by
  obtain ⟨-, -, e0, e1, -⟩ := idx0 t
  unfold iblk0
  rw [View.read_apply]
  show (V c main_v13 : S40000x64.Idx → EReal) _ = _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 64 + 1 * (y 1).val = (i 1).val; rw [e1, h1]; omega

/-- The left weight matrix's block is the matrix. -/
theorem blk0_Wl (c : Dev nD) (t : Fin cfg0.N) (y i : S64x64.Idx)
    (h0 : (i 0).val = (y 0).val) (h1 : (i 1).val = (y 1).val) :
    (iblk0 V c 2 t : Vec Ideal S64x64 .f32) y = (V c main_arg8 : S64x64.Idx → EReal) i := by
  obtain ⟨-, -, -, -, e0, e1, -⟩ := idx0 t
  unfold iblk0
  rw [View.read_apply]
  show (V c main_arg8 : S64x64.Idx → EReal) _ = _
  congr 1
  funext a
  apply Fin.ext
  match a with
  | ⟨0, _⟩ => show win0_2.index t (0 : Fin 2) * 64 + 1 * (y 0).val = (i 0).val; rw [e0, h0]; omega
  | ⟨1, _⟩ => show win0_2.index t (1 : Fin 2) * 64 + 1 * (y 1).val = (i 1).val; rw [e1, h1]; omega

/-- The right weight matrix's block is the matrix. -/
theorem blk0_Wr (c : Dev nD) (t : Fin cfg0.N) (y i : S64x64.Idx)
    (h0 : (i 0).val = (y 0).val) (h1 : (i 1).val = (y 1).val) :
    (iblk0 V c 3 t : Vec Ideal S64x64 .f32) y = (V c main_arg9 : S64x64.Idx → EReal) i := by
  obtain ⟨-, -, -, -, -, -, e0, e1, -⟩ := idx0 t
  unfold iblk0
  rw [View.read_apply]
  show (V c main_arg9 : S64x64.Idx → EReal) _ = _
  congr 1
  funext a
  apply Fin.ext
  match a with
  | ⟨0, _⟩ => show win0_3.index t (0 : Fin 2) * 64 + 1 * (y 0).val = (i 0).val; rw [e0, h0]; omega
  | ⟨1, _⟩ => show win0_3.index t (1 : Fin 2) * 64 + 1 * (y 1).val = (i 1).val; rw [e1, h1]; omega

/-- The bias's block is the bias. -/
theorem blk0_b (c : Dev nD) (t : Fin cfg0.N) (y i : S64.Idx) (h0 : (i 0).val = (y 0).val) :
    (iblk0 V c 4 t : Vec Ideal S64 .f32) y = (V c main_arg16 : S64.Idx → EReal) i := by
  obtain ⟨-, -, -, -, -, -, -, -, e0, -⟩ := idx0 t
  unfold iblk0
  rw [View.read_apply]
  show (V c main_arg16 : S64.Idx → EReal) _ = _
  congr 1
  funext a
  apply Fin.ext
  match a with
  | ⟨0, _⟩ => show win0_4.index t (0 : Fin 1) * 64 + 1 * (y 0).val = (i 0).val; rw [e0, h0]; omega

/-- What point `t` writes back is its row block of the combine step of the entry arrays. -/
theorem flushed0 (c : Dev nD) (t : Fin cfg0.N) :
    (dat0 V c).flushed 5 t = ((cfg0.win 5).blk t).view.read (Elt Ideal)
      (combReluM (V c main_v38) (V c main_v13) (V c main_arg8) (V c main_arg9) (V c main_arg16)) := by
  show (cfg0.win 5).cut (grid0.coords t) ((dat0 V c).after 5 t) = _
  rw [after0_5]
  unfold out0_5
  rw [View.canon_unit_zero zero2_0]
  simp only [View.ld_unit_zero (S := S5000x64) zero2_0, View.ld_unit_zero (S := S64x64) zero2_0, View.ld_unit_zero (S := S64) zero1_0]
  obtain ⟨-, -, -, -, -, -, -, -, -, e51, -⟩ := idx0 t
  funext j
  show k0_pay1 (F := Ideal) (iblk0 V c 0 t) (iblk0 V c 1 t) (iblk0 V c 2 t) (iblk0 V c 3 t) (iblk0 V c 4 t) j
    = combReluM (V c main_v38) (V c main_v13) (V c main_arg8) (V c main_arg9) (V c main_arg16) (((cfg0.win 5).blk t).view.emb j)
  refine (pay0_apply _ _ _ _ _ j).trans ?_
  have r0 : ((((cfg0.win 5).blk t).view.emb j : S40000x64.Idx) 0).val = win0_5.index t (0 : Fin 2) * 5000 + (j 0).val := by
    show win0_5.index t (0 : Fin 2) * 5000 + 1 * (j 0).val = _; omega
  have r1 : ((((cfg0.win 5).blk t).view.emb j : S40000x64.Idx) 1).val = (j 1).val := by
    show win0_5.index t (1 : Fin 2) * 64 + 1 * (j 1).val = _; rw [e51]; omega
  have hA : ∀ k : Fin 64, (iblk0 V c 0 t : Vec Ideal S5000x64 .f32) (lrow j k)
      = (V c main_v38 : S40000x64.Idx → EReal) (arowM (((cfg0.win 5).blk t).view.emb j) k) :=
    fun k => blk0_A V c t (lrow j k) _ r0 rfl
  have hX : ∀ k : Fin 64, (iblk0 V c 1 t : Vec Ideal S5000x64 .f32) (lrow j k)
      = (V c main_v13 : S40000x64.Idx → EReal) (arowM (((cfg0.win 5).blk t).view.emb j) k) :=
    fun k => blk0_X V c t (lrow j k) _ r0 rfl
  have hWl : ∀ k : Fin 64, (iblk0 V c 2 t : Vec Ideal S64x64 .f32) (wcol j k)
      = (V c main_arg8 : S64x64.Idx → EReal) (wcolM (((cfg0.win 5).blk t).view.emb j) k) :=
    fun k => blk0_Wl V c t (wcol j k) _ rfl r1
  have hWr : ∀ k : Fin 64, (iblk0 V c 3 t : Vec Ideal S64x64 .f32) (wcol j k)
      = (V c main_arg9 : S64x64.Idx → EReal) (wcolM (((cfg0.win 5).blk t).view.emb j) k) :=
    fun k => blk0_Wr V c t (wcol j k) _ rfl r1
  have hb : (iblk0 V c 4 t : Vec Ideal S64 .f32) (bcol j)
      = (V c main_arg16 : S64.Idx → EReal) (bcolM (((cfg0.win 5).blk t).view.emb j)) :=
    blk0_b V c t (bcol j) _ r1
  unfold combReluM combM
  simp only [hA, hX, hWl, hWr, hb]

/-- An index of the output array is in point `t`'s block iff each coordinate is in the block's range. -/
theorem mem_blk0 (t : Fin cfg0.N) (i : S40000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v39).slice (win0_5.rect t)).set ↔ _
  rw [View.set_slice_whole, Rect.mem_set_unit]
  exact Iff.rfl

/-- The output array after the region: the combine step of the arrays the region found (row r is written by point r / 5000). -/
theorem arr0 (c : Dev nD) : (dat0 V c).arrAt 5 cfg0.N
    = combReluM (V c main_v38) (V c main_v13) (V c main_arg8) (V c main_arg9) (V c main_arg16) :=
  (dat0 V c).arrAt_eq_of_cover 5 _ (fun t _ => flushed0 V c t) fun (i : S40000x64.Idx) => by
    have hi0 : (i 0).val < 40000 := (i 0).isLt
    have hi1 : (i 1).val < 64 := (i 1).isLt
    obtain ⟨t, ht⟩ := onto0 ⟨(i 0).val / 5000, by omega⟩
    obtain ⟨-, -, -, -, -, -, -, -, -, e51, -⟩ := idx0 t
    refine ⟨t, flush0_5 t, ?_⟩
    rw [mem_blk0]
    intro a
    match a with
    | ⟨0, _⟩ =>
      show win0_5.index t (0 : Fin 2) * 5000 ≤ (i 0).val ∧ (i 0).val < win0_5.index t (0 : Fin 2) * 5000 + 5000
      rw [ht]
      show (i 0).val / 5000 * 5000 ≤ (i 0).val ∧ (i 0).val < (i 0).val / 5000 * 5000 + 5000
      omega
    | ⟨1, _⟩ =>
      show win0_5.index t (1 : Fin 2) * 64 ≤ (i 1).val ∧ (i 1).val < win0_5.index t (1 : Fin 2) * 64 + 64
      rw [e51]; omega

end Cert.KernelIdeal.Fold

end
-- ==== Proof.SpecRef.lean ====
/-
  The reference's combine steps are the whole-array combine functions.

  Each step of the reference is  agg · Wl + x · Wr + b  written with two matrix products on the host, two sums, a
  bias repeated down the rows and (first layer) a maximum with 0.  Read at an index (r, q) the products are sums over
  the 64 contracted positions of  agg (r, k) * Wl (k, q)  and  x (r, k) * Wr (k, q),  the repeated bias is  b q,  so each
  such stage is the whole-array combine function applied to the stages before it.
-/
import proofs.«178897_j10419590660202_1_alg».proof.Proof.Spec
import proofs.«178897_j10419590660202_1_alg».proof.Proof.Gen.ReferenceIdeal.Read

noncomputable section

namespace Cert.Bridge

open Idealize.ShloMosaic Cert.KernelIdeal.Fold Cert.ReferenceIdeal.Read

/-- The movies' first layer: the mean of the users' features over incoming edges, the movies' own features, the maximum with 0. -/
theorem ref_m1 (x0 : (⟨Cert.ReferenceIdeal.S200000, .i32⟩ : BufTy).Contents (Elt Ideal)) (x1 : (⟨Cert.ReferenceIdeal.S40000, .i32⟩ : BufTy).Contents (Elt Ideal)) (x2 : (⟨Cert.ReferenceIdeal.S2000000, .i32⟩ : BufTy).Contents (Elt Ideal)) (x3 : (⟨Cert.ReferenceIdeal.S2000000, .i32⟩ : BufTy).Contents (Elt Ideal)) (x6 : (⟨Cert.ReferenceIdeal.S200000x64, .f32⟩ : BufTy).Contents (Elt Ideal)) (x7 : (⟨Cert.ReferenceIdeal.S40000x64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x16 : (⟨Cert.ReferenceIdeal.S64, .f32⟩ : BufTy).Contents (Elt Ideal)) :
    combReluM (val_main_v31 (F := Ideal) x0 x2 x3 x6) (val_main_v13 (F := Ideal) x1 x7) x8 x9 x16 = val_main_v38 (F := Ideal) x0 x1 x2 x3 x6 x7 x8 x9 x16 := by
  funext i
  rw [val_main_v38_apply, val_main_v37_apply, val_main_v34_apply, val_main_v32_apply, val_main_v33_apply, val_main_v36_apply, val_main_v35_apply, val_main_call0_v0_apply, val_main_call0_cst_apply]
  rfl

/-- The users' first layer. -/
theorem ref_u1 (x0 : (⟨Cert.ReferenceIdeal.S200000, .i32⟩ : BufTy).Contents (Elt Ideal)) (x1 : (⟨Cert.ReferenceIdeal.S40000, .i32⟩ : BufTy).Contents (Elt Ideal)) (x4 : (⟨Cert.ReferenceIdeal.S2000000, .i32⟩ : BufTy).Contents (Elt Ideal)) (x5 : (⟨Cert.ReferenceIdeal.S2000000, .i32⟩ : BufTy).Contents (Elt Ideal)) (x6 : (⟨Cert.ReferenceIdeal.S200000x64, .f32⟩ : BufTy).Contents (Elt Ideal)) (x7 : (⟨Cert.ReferenceIdeal.S40000x64, .f32⟩ : BufTy).Contents (Elt Ideal)) (x10 : (⟨Cert.ReferenceIdeal.S64x64, .f32⟩ : BufTy).Contents (Elt Ideal)) (x11 : (⟨Cert.ReferenceIdeal.S64x64, .f32⟩ : BufTy).Contents (Elt Ideal)) (x17 : (⟨Cert.ReferenceIdeal.S64, .f32⟩ : BufTy).Contents (Elt Ideal)) :
    combReluU (val_main_v56 (F := Ideal) x1 x4 x5 x7) (val_main_v6 (F := Ideal) x0 x6) x10 x11 x17 = val_main_v63 (F := Ideal) x0 x1 x4 x5 x6 x7 x10 x11 x17 := by
  funext i
  rw [val_main_v63_apply, val_main_v62_apply, val_main_v59_apply, val_main_v57_apply, val_main_v58_apply, val_main_v61_apply, val_main_v60_apply, val_main_call1_v0_apply, val_main_call1_cst_apply]
  rfl

/-- The movies' second layer: the mean of the users' first-layer embeddings, the movies' first-layer embeddings, no maximum. -/
theorem ref_m2 (x0 : (⟨Cert.ReferenceIdeal.S200000, .i32⟩ : BufTy).Contents (Elt Ideal)) (x1 : (⟨Cert.ReferenceIdeal.S40000, .i32⟩ : BufTy).Contents (Elt Ideal)) (x2 : (⟨Cert.ReferenceIdeal.S2000000, .i32⟩ : BufTy).Contents (Elt Ideal)) (x3 : (⟨Cert.ReferenceIdeal.S2000000, .i32⟩ : BufTy).Contents (Elt Ideal)) (x4 : (⟨Cert.ReferenceIdeal.S2000000, .i32⟩ : BufTy).Contents (Elt Ideal)) (x5 : (⟨Cert.ReferenceIdeal.S2000000, .i32⟩ : BufTy).Contents (Elt Ideal)) (x6 : (⟨Cert.ReferenceIdeal.S200000x64, .f32⟩ : BufTy).Contents (Elt Ideal)) (x7 : (⟨Cert.ReferenceIdeal.S40000x64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64x64, .f32⟩ : BufTy).Contents (Elt Ideal)) (x11 : (⟨Cert.ReferenceIdeal.S64x64, .f32⟩ : BufTy).Contents (Elt Ideal)) (x12 : (⟨Cert.ReferenceIdeal.S64x64, .f32⟩ : BufTy).Contents (Elt Ideal)) (x13 : (⟨Cert.ReferenceIdeal.S64x64, .f32⟩ : BufTy).Contents (Elt Ideal)) (x16 : (⟨Cert.ReferenceIdeal.S64, .f32⟩ : BufTy).Contents (Elt Ideal)) (x17 : (⟨Cert.ReferenceIdeal.S64, .f32⟩ : BufTy).Contents (Elt Ideal)) (x18 : (⟨Cert.ReferenceIdeal.S64, .f32⟩ : BufTy).Contents (Elt Ideal)) :
    combM (val_main_v81 (F := Ideal) x0 x1 x2 x3 x4 x5 x6 x7 x10 x11 x17) (val_main_v38 (F := Ideal) x0 x1 x2 x3 x6 x7 x8 x9 x16) x12 x13 x18 = val_main_v87 (F := Ideal) x0 x1 x2 x3 x4 x5 x6 x7 x8 x9 x10 x11 x12 x13 x16 x17 x18 := by
  funext i
  rw [val_main_v87_apply, val_main_v84_apply, val_main_v82_apply, val_main_v83_apply, val_main_v86_apply, val_main_v85_apply]
  rfl

/-- The users' second layer. -/
theorem ref_u2 (x0 : (⟨Cert.ReferenceIdeal.S200000, .i32⟩ : BufTy).Contents (Elt Ideal)) (x1 : (⟨Cert.ReferenceIdeal.S40000, .i32⟩ : BufTy).Contents (Elt Ideal)) (x2 : (⟨Cert.ReferenceIdeal.S2000000, .i32⟩ : BufTy).Contents (Elt Ideal)) (x3 : (⟨Cert.ReferenceIdeal.S2000000, .i32⟩ : BufTy).Contents (Elt Ideal)) (x4 : (⟨Cert.ReferenceIdeal.S2000000, .i32⟩ : BufTy).Contents (Elt Ideal)) (x5 : (⟨Cert.ReferenceIdeal.S2000000, .i32⟩ : BufTy).Contents (Elt Ideal)) (x6 : (⟨Cert.ReferenceIdeal.S200000x64, .f32⟩ : BufTy).Contents (Elt Ideal)) (x7 : (⟨Cert.ReferenceIdeal.S40000x64, .f32⟩ : BufTy).Contents (Elt Ideal)) (x8 : (⟨Cert.ReferenceIdeal.S64x64, .f32⟩ : BufTy).Contents (Elt Ideal)) (x9 : (⟨Cert.ReferenceIdeal.S64x64, .f32⟩ : BufTy).Contents (Elt Ideal)) (x10 : (⟨Cert.ReferenceIdeal.S64x64, .f32⟩ : BufTy).Contents (Elt Ideal)) (x11 : (⟨Cert.ReferenceIdeal.S64x64, .f32⟩ : BufTy).Contents (Elt Ideal)) (x14 : (⟨Cert.ReferenceIdeal.S64x64, .f32⟩ : BufTy).Contents (Elt Ideal)) (x15 : (⟨Cert.ReferenceIdeal.S64x64, .f32⟩ : BufTy).Contents (Elt Ideal)) (x16 : (⟨Cert.ReferenceIdeal.S64, .f32⟩ : BufTy).Contents (Elt Ideal)) (x17 : (⟨Cert.ReferenceIdeal.S64, .f32⟩ : BufTy).Contents (Elt Ideal)) (x19 : (⟨Cert.ReferenceIdeal.S64, .f32⟩ : BufTy).Contents (Elt Ideal)) :
    combU (val_main_v105 (F := Ideal) x0 x1 x2 x3 x4 x5 x6 x7 x8 x9 x16) (val_main_v63 (F := Ideal) x0 x1 x4 x5 x6 x7 x10 x11 x17) x14 x15 x19 = val_main_v111 (F := Ideal) x0 x1 x2 x3 x4 x5 x6 x7 x8 x9 x10 x11 x14 x15 x16 x17 x19 := by
  funext i
  rw [val_main_v111_apply, val_main_v108_apply, val_main_v106_apply, val_main_v107_apply, val_main_v110_apply, val_main_v109_apply]
  rfl

end Cert.Bridge

end
-- ==== Proof.HostFold.lean ====
/-
  The host operations between the regions, one at a time, as the reference's stages.

  Both programs gather a feature table at node ids (a negative id wraps round by the table's length), gather the
  source nodes' rows along the edges, add the gathered rows up per destination node, and divide by the repeated count.
  They do so with the same operations over dimension records that are spelt identically in the two programs, so each
  single operation of the one, applied to a stage of the other, IS the next stage — by unfolding the stage's definition.
  Stated one operation at a time so that a composed term is folded into the stages from the inside out.
-/
import proofs.«178897_j10419590660202_1_alg».proof.KernelIdeal
import proofs.«178897_j10419590660202_1_alg».proof.Proof.Gen.KernelIdeal
import proofs.«178897_j10419590660202_1_alg».proof.Proof.Gen.ReferenceIdeal.Read

noncomputable section

namespace Cert.KernelIdeal.Fold

open Cert.KernelIdeal Cert.KernelIdeal.Gen Idealize.ShloMosaic
open Cert.ReferenceIdeal.Read

/-! ## The feature tables at the node ids -/

/-- The users' features. -/
theorem hf_v6 (x0 : (⟨S200000, .i32⟩ : BufTy).Contents (Elt Ideal)) (x6 : (⟨S200000x64, .f32⟩ : BufTy).Contents (Elt Ideal)) :
    Host.gather gather_S200000x64_S200000x1_S200000x64_1_0_n_n_0_1_164 x6 (broadcastInDim S200000x1 ![0] bcast_S200000_S200000x1_0 (select (cmpi CmpIPredicate.slt x0 (broadcastInDim S200000 ![] bcast_S_S200000 (constantI S_ 32 0#32))) (addi x0 (broadcastInDim S200000 ![] bcast_S_S200000 (constantI S_ 32 200000#32))) x0))
      = val_main_v6 (F := Ideal) x0 x6 := rfl

/-- The movies' features. -/
theorem hf_v13 (x1 : (⟨S40000, .i32⟩ : BufTy).Contents (Elt Ideal)) (x7 : (⟨S40000x64, .f32⟩ : BufTy).Contents (Elt Ideal)) :
    Host.gather gather_S40000x64_S40000x1_S40000x64_1_0_n_n_0_1_164 x7 (broadcastInDim S40000x1 ![0] bcast_S40000_S40000x1_0 (select (cmpi CmpIPredicate.slt x1 (broadcastInDim S40000 ![] bcast_S_S40000 (constantI S_ 32 0#32))) (addi x1 (broadcastInDim S40000 ![] bcast_S_S40000 (constantI S_ 32 40000#32))) x1))
      = val_main_v13 (F := Ideal) x1 x7 := rfl

/-! ## First layer, movies: users' features along the edges, summed per movie, over the count -/

/-- The users' features gathered at the edges' sources. -/
theorem hf_v20 (x0 : (⟨S200000, .i32⟩ : BufTy).Contents (Elt Ideal)) (x2 : (⟨S2000000, .i32⟩ : BufTy).Contents (Elt Ideal)) (x6 : (⟨S200000x64, .f32⟩ : BufTy).Contents (Elt Ideal)) :
    Host.gather gather_S200000x64_S2000000x1_S2000000x64_1_0_n_n_0_1_164 (val_main_v6 (F := Ideal) x0 x6) (broadcastInDim S2000000x1 ![0] bcast_S2000000_S2000000x1_0 (select (cmpi CmpIPredicate.slt x2 (broadcastInDim S2000000 ![] bcast_S_S2000000 (constantI S_ 32 0#32))) (addi x2 (broadcastInDim S2000000 ![] bcast_S_S2000000 (constantI S_ 32 200000#32))) x2))
      = val_main_v20 (F := Ideal) x0 x2 x6 := rfl

/-- Summed per destination movie. -/
theorem hf_v23 (x0 : (⟨S200000, .i32⟩ : BufTy).Contents (Elt Ideal)) (x2 : (⟨S2000000, .i32⟩ : BufTy).Contents (Elt Ideal)) (x3 : (⟨S2000000, .i32⟩ : BufTy).Contents (Elt Ideal)) (x6 : (⟨S200000x64, .f32⟩ : BufTy).Contents (Elt Ideal)) :
    Host.scatterAdd (F := Ideal) scatter_S40000x64_S2000000x1_S2000000x64_1_0_0_1 (broadcastInDim S40000x64 ![] bcast_S_S40000x64 (constant (F := Ideal) S_ .f32 0x00000000#32)) (broadcastInDim S2000000x1 ![0] bcast_S2000000_S2000000x1_0 x3) (val_main_v20 (F := Ideal) x0 x2 x6)
      = val_main_v23 (F := Ideal) x0 x2 x3 x6 := rfl

/-- The count repeated along the 64 columns. -/
theorem hf_v30 (x3 : (⟨S2000000, .i32⟩ : BufTy).Contents (Elt Ideal)) :
    broadcastInDim S40000x64 ![0, 1] bcast_S40000x1_S40000x64_0_1 (val_main_v29 (F := Ideal) x3)
      = val_main_v30 (F := Ideal) x3 := rfl

/-- The mean. -/
theorem hf_v31 (x0 : (⟨S200000, .i32⟩ : BufTy).Contents (Elt Ideal)) (x2 : (⟨S2000000, .i32⟩ : BufTy).Contents (Elt Ideal)) (x3 : (⟨S2000000, .i32⟩ : BufTy).Contents (Elt Ideal)) (x6 : (⟨S200000x64, .f32⟩ : BufTy).Contents (Elt Ideal)) :
    Host.divf (F := Ideal) (φ := .f32) (val_main_v23 (F := Ideal) x0 x2 x3 x6 : FVec Ideal S40000x64 .f32) (val_main_v30 (F := Ideal) x3)
      = val_main_v31 (F := Ideal) x0 x2 x3 x6 := rfl

/-! ## First layer, users -/

/-- The movies' features gathered at the edges' sources. -/
theorem hf_v45 (x1 : (⟨S40000, .i32⟩ : BufTy).Contents (Elt Ideal)) (x4 : (⟨S2000000, .i32⟩ : BufTy).Contents (Elt Ideal)) (x7 : (⟨S40000x64, .f32⟩ : BufTy).Contents (Elt Ideal)) :
    Host.gather gather_S40000x64_S2000000x1_S2000000x64_1_0_n_n_0_1_164 (val_main_v13 (F := Ideal) x1 x7) (broadcastInDim S2000000x1 ![0] bcast_S2000000_S2000000x1_0 (select (cmpi CmpIPredicate.slt x4 (broadcastInDim S2000000 ![] bcast_S_S2000000 (constantI S_ 32 0#32))) (addi x4 (broadcastInDim S2000000 ![] bcast_S_S2000000 (constantI S_ 32 40000#32))) x4))
      = val_main_v45 (F := Ideal) x1 x4 x7 := rfl

/-- Summed per destination user. -/
theorem hf_v48 (x1 : (⟨S40000, .i32⟩ : BufTy).Contents (Elt Ideal)) (x4 : (⟨S2000000, .i32⟩ : BufTy).Contents (Elt Ideal)) (x5 : (⟨S2000000, .i32⟩ : BufTy).Contents (Elt Ideal)) (x7 : (⟨S40000x64, .f32⟩ : BufTy).Contents (Elt Ideal)) :
    Host.scatterAdd (F := Ideal) scatter_S200000x64_S2000000x1_S2000000x64_1_0_0_1 (broadcastInDim S200000x64 ![] bcast_S_S200000x64 (constant (F := Ideal) S_ .f32 0x00000000#32)) (broadcastInDim S2000000x1 ![0] bcast_S2000000_S2000000x1_0 x5) (val_main_v45 (F := Ideal) x1 x4 x7)
      = val_main_v48 (F := Ideal) x1 x4 x5 x7 := rfl

/-- The count repeated along the columns. -/
theorem hf_v55 (x5 : (⟨S2000000, .i32⟩ : BufTy).Contents (Elt Ideal)) :
    broadcastInDim S200000x64 ![0, 1] bcast_S200000x1_S200000x64_0_1 (val_main_v54 (F := Ideal) x5)
      = val_main_v55 (F := Ideal) x5 := rfl

/-- The mean. -/
theorem hf_v56 (x1 : (⟨S40000, .i32⟩ : BufTy).Contents (Elt Ideal)) (x4 : (⟨S2000000, .i32⟩ : BufTy).Contents (Elt Ideal)) (x5 : (⟨S2000000, .i32⟩ : BufTy).Contents (Elt Ideal)) (x7 : (⟨S40000x64, .f32⟩ : BufTy).Contents (Elt Ideal)) :
    Host.divf (F := Ideal) (φ := .f32) (val_main_v48 (F := Ideal) x1 x4 x5 x7 : FVec Ideal S200000x64 .f32) (val_main_v55 (F := Ideal) x5)
      = val_main_v56 (F := Ideal) x1 x4 x5 x7 := rfl

/-! ## Second layer, movies: the users' first-layer embeddings along the edges -/

/-- Gathered at the edges' sources. -/
theorem hf_v70 (x0 : (⟨S200000, .i32⟩ : BufTy).Contents (Elt Ideal)) (x1 : (⟨S40000, .i32⟩ : BufTy).Contents (Elt Ideal)) (x2 : (⟨S2000000, .i32⟩ : BufTy).Contents (Elt Ideal)) (x4 : (⟨S2000000, .i32⟩ : BufTy).Contents (Elt Ideal)) (x5 : (⟨S2000000, .i32⟩ : BufTy).Contents (Elt Ideal)) (x6 : (⟨S200000x64, .f32⟩ : BufTy).Contents (Elt Ideal)) (x7 : (⟨S40000x64, .f32⟩ : BufTy).Contents (Elt Ideal)) (x10 : (⟨S64x64, .f32⟩ : BufTy).Contents (Elt Ideal)) (x11 : (⟨S64x64, .f32⟩ : BufTy).Contents (Elt Ideal)) (x17 : (⟨S64, .f32⟩ : BufTy).Contents (Elt Ideal)) :
    Host.gather gather_S200000x64_S2000000x1_S2000000x64_1_0_n_n_0_1_164 (val_main_v63 (F := Ideal) x0 x1 x4 x5 x6 x7 x10 x11 x17) (broadcastInDim S2000000x1 ![0] bcast_S2000000_S2000000x1_0 (select (cmpi CmpIPredicate.slt x2 (broadcastInDim S2000000 ![] bcast_S_S2000000 (constantI S_ 32 0#32))) (addi x2 (broadcastInDim S2000000 ![] bcast_S_S2000000 (constantI S_ 32 200000#32))) x2))
      = val_main_v70 (F := Ideal) x0 x1 x2 x4 x5 x6 x7 x10 x11 x17 := rfl

/-- Summed per destination movie. -/
theorem hf_v73 (x0 : (⟨S200000, .i32⟩ : BufTy).Contents (Elt Ideal)) (x1 : (⟨S40000, .i32⟩ : BufTy).Contents (Elt Ideal)) (x2 : (⟨S2000000, .i32⟩ : BufTy).Contents (Elt Ideal)) (x3 : (⟨S2000000, .i32⟩ : BufTy).Contents (Elt Ideal)) (x4 : (⟨S2000000, .i32⟩ : BufTy).Contents (Elt Ideal)) (x5 : (⟨S2000000, .i32⟩ : BufTy).Contents (Elt Ideal)) (x6 : (⟨S200000x64, .f32⟩ : BufTy).Contents (Elt Ideal)) (x7 : (⟨S40000x64, .f32⟩ : BufTy).Contents (Elt Ideal)) (x10 : (⟨S64x64, .f32⟩ : BufTy).Contents (Elt Ideal)) (x11 : (⟨S64x64, .f32⟩ : BufTy).Contents (Elt Ideal)) (x17 : (⟨S64, .f32⟩ : BufTy).Contents (Elt Ideal)) :
    Host.scatterAdd (F := Ideal) scatter_S40000x64_S2000000x1_S2000000x64_1_0_0_1 (broadcastInDim S40000x64 ![] bcast_S_S40000x64 (constant (F := Ideal) S_ .f32 0x00000000#32)) (broadcastInDim S2000000x1 ![0] bcast_S2000000_S2000000x1_0 x3) (val_main_v70 (F := Ideal) x0 x1 x2 x4 x5 x6 x7 x10 x11 x17)
      = val_main_v73 (F := Ideal) x0 x1 x2 x3 x4 x5 x6 x7 x10 x11 x17 := rfl

/-- The count repeated along the columns. -/
theorem hf_v80 (x3 : (⟨S2000000, .i32⟩ : BufTy).Contents (Elt Ideal)) :
    broadcastInDim S40000x64 ![0, 1] bcast_S40000x1_S40000x64_0_1 (val_main_v79 (F := Ideal) x3)
      = val_main_v80 (F := Ideal) x3 := rfl

/-- The mean. -/
theorem hf_v81 (x0 : (⟨S200000, .i32⟩ : BufTy).Contents (Elt Ideal)) (x1 : (⟨S40000, .i32⟩ : BufTy).Contents (Elt Ideal)) (x2 : (⟨S2000000, .i32⟩ : BufTy).Contents (Elt Ideal)) (x3 : (⟨S2000000, .i32⟩ : BufTy).Contents (Elt Ideal)) (x4 : (⟨S2000000, .i32⟩ : BufTy).Contents (Elt Ideal)) (x5 : (⟨S2000000, .i32⟩ : BufTy).Contents (Elt Ideal)) (x6 : (⟨S200000x64, .f32⟩ : BufTy).Contents (Elt Ideal)) (x7 : (⟨S40000x64, .f32⟩ : BufTy).Contents (Elt Ideal)) (x10 : (⟨S64x64, .f32⟩ : BufTy).Contents (Elt Ideal)) (x11 : (⟨S64x64, .f32⟩ : BufTy).Contents (Elt Ideal)) (x17 : (⟨S64, .f32⟩ : BufTy).Contents (Elt Ideal)) :
    Host.divf (F := Ideal) (φ := .f32) (val_main_v73 (F := Ideal) x0 x1 x2 x3 x4 x5 x6 x7 x10 x11 x17 : FVec Ideal S40000x64 .f32) (val_main_v80 (F := Ideal) x3)
      = val_main_v81 (F := Ideal) x0 x1 x2 x3 x4 x5 x6 x7 x10 x11 x17 := rfl

/-! ## Second layer, users: the movies' first-layer embeddings along the edges -/

/-- Gathered at the edges' sources. -/
theorem hf_v94 (x0 : (⟨S200000, .i32⟩ : BufTy).Contents (Elt Ideal)) (x1 : (⟨S40000, .i32⟩ : BufTy).Contents (Elt Ideal)) (x2 : (⟨S2000000, .i32⟩ : BufTy).Contents (Elt Ideal)) (x3 : (⟨S2000000, .i32⟩ : BufTy).Contents (Elt Ideal)) (x4 : (⟨S2000000, .i32⟩ : BufTy).Contents (Elt Ideal)) (x6 : (⟨S200000x64, .f32⟩ : BufTy).Contents (Elt Ideal)) (x7 : (⟨S40000x64, .f32⟩ : BufTy).Contents (Elt Ideal)) (x8 : (⟨S64x64, .f32⟩ : BufTy).Contents (Elt Ideal)) (x9 : (⟨S64x64, .f32⟩ : BufTy).Contents (Elt Ideal)) (x16 : (⟨S64, .f32⟩ : BufTy).Contents (Elt Ideal)) :
    Host.gather gather_S40000x64_S2000000x1_S2000000x64_1_0_n_n_0_1_164 (val_main_v38 (F := Ideal) x0 x1 x2 x3 x6 x7 x8 x9 x16) (broadcastInDim S2000000x1 ![0] bcast_S2000000_S2000000x1_0 (select (cmpi CmpIPredicate.slt x4 (broadcastInDim S2000000 ![] bcast_S_S2000000 (constantI S_ 32 0#32))) (addi x4 (broadcastInDim S2000000 ![] bcast_S_S2000000 (constantI S_ 32 40000#32))) x4))
      = val_main_v94 (F := Ideal) x0 x1 x2 x3 x4 x6 x7 x8 x9 x16 := rfl

/-- Summed per destination user. -/
theorem hf_v97 (x0 : (⟨S200000, .i32⟩ : BufTy).Contents (Elt Ideal)) (x1 : (⟨S40000, .i32⟩ : BufTy).Contents (Elt Ideal)) (x2 : (⟨S2000000, .i32⟩ : BufTy).Contents (Elt Ideal)) (x3 : (⟨S2000000, .i32⟩ : BufTy).Contents (Elt Ideal)) (x4 : (⟨S2000000, .i32⟩ : BufTy).Contents (Elt Ideal)) (x5 : (⟨S2000000, .i32⟩ : BufTy).Contents (Elt Ideal)) (x6 : (⟨S200000x64, .f32⟩ : BufTy).Contents (Elt Ideal)) (x7 : (⟨S40000x64, .f32⟩ : BufTy).Contents (Elt Ideal)) (x8 : (⟨S64x64, .f32⟩ : BufTy).Contents (Elt Ideal)) (x9 : (⟨S64x64, .f32⟩ : BufTy).Contents (Elt Ideal)) (x16 : (⟨S64, .f32⟩ : BufTy).Contents (Elt Ideal)) :
    Host.scatterAdd (F := Ideal) scatter_S200000x64_S2000000x1_S2000000x64_1_0_0_1 (broadcastInDim S200000x64 ![] bcast_S_S200000x64 (constant (F := Ideal) S_ .f32 0x00000000#32)) (broadcastInDim S2000000x1 ![0] bcast_S2000000_S2000000x1_0 x5) (val_main_v94 (F := Ideal) x0 x1 x2 x3 x4 x6 x7 x8 x9 x16)
      = val_main_v97 (F := Ideal) x0 x1 x2 x3 x4 x5 x6 x7 x8 x9 x16 := rfl

/-- The count repeated along the columns. -/
theorem hf_v104 (x5 : (⟨S2000000, .i32⟩ : BufTy).Contents (Elt Ideal)) :
    broadcastInDim S200000x64 ![0, 1] bcast_S200000x1_S200000x64_0_1 (val_main_v103 (F := Ideal) x5)
      = val_main_v104 (F := Ideal) x5 := rfl

/-- The mean. -/
theorem hf_v105 (x0 : (⟨S200000, .i32⟩ : BufTy).Contents (Elt Ideal)) (x1 : (⟨S40000, .i32⟩ : BufTy).Contents (Elt Ideal)) (x2 : (⟨S2000000, .i32⟩ : BufTy).Contents (Elt Ideal)) (x3 : (⟨S2000000, .i32⟩ : BufTy).Contents (Elt Ideal)) (x4 : (⟨S2000000, .i32⟩ : BufTy).Contents (Elt Ideal)) (x5 : (⟨S2000000, .i32⟩ : BufTy).Contents (Elt Ideal)) (x6 : (⟨S200000x64, .f32⟩ : BufTy).Contents (Elt Ideal)) (x7 : (⟨S40000x64, .f32⟩ : BufTy).Contents (Elt Ideal)) (x8 : (⟨S64x64, .f32⟩ : BufTy).Contents (Elt Ideal)) (x9 : (⟨S64x64, .f32⟩ : BufTy).Contents (Elt Ideal)) (x16 : (⟨S64, .f32⟩ : BufTy).Contents (Elt Ideal)) :
    Host.divf (F := Ideal) (φ := .f32) (val_main_v97 (F := Ideal) x0 x1 x2 x3 x4 x5 x6 x7 x8 x9 x16 : FVec Ideal S200000x64 .f32) (val_main_v104 (F := Ideal) x5)
      = val_main_v105 (F := Ideal) x0 x1 x2 x3 x4 x5 x6 x7 x8 x9 x16 := rfl

end Cert.KernelIdeal.Fold

end
-- ==== Proof.ScatterLemma.lean ====
/-
  Counting the edges that arrive at each destination node, with and without a trailing unit axis.

  One program scatters a vector of ones, one per edge, into a vector of zeros, one per node, and then gives the result
  a trailing axis of size one; the other scatters a one-column matrix of ones into a one-column matrix of zeros through
  a window of size one on that column.  Both are then bounded below by one.  At the ideal instance a scatter-add is,
  at each operand index, the operand plus the sum of the updates whose index lands there.  An update lands where the
  window's start plus its window coordinate is: for both programs the start on the node axis is the edge's scatter
  index read signed, and the window coordinate there is zero; the one-column program has a second axis, on which the
  start is zero and the window coordinate is the edge row's column, again zero.  So edge `j` lands on node `r` in the
  first program exactly when edge row `(j, 0)` lands on `(r, 0)` in the second, the rows `(j, 0)` are all the rows of
  a one-column matrix, and the two sums agree term by term under `j ↦ (j, 0)`.
-/
import Idealize.ShloMosaic.PureOps.Ideal
import Idealize.ShloMosaic.Lib.ValueIdx
import Idealize.ShloMosaic.Lib.Pipeline.Value

noncomputable section

namespace Cert.Bridge

open Idealize.ShloMosaic Idealize.ShloMosaic.ValueIdx

/-! ## Where an update lands -/

/-- An update index lands on operand index `i` exactly when, on every operand axis, the window's start plus the
    window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro hh
    by_cases hc : ∀ a, 0 ≤ d.start j idx a + d.window j a ∧ d.start j idx a + d.window j a < s.size a
    · rw [dif_pos hc] at hh
      have h1 := Option.some.inj hh
      intro a
      have h2 : (d.start j idx a + (d.window j a : Int)).toNat = (i a).val := congrArg (fun f => (f a).val) h1
      have := hc a
      omega
    · rw [dif_neg hc] at hh
      exact absurd hh (by simp)
  · intro hh
    have hc : ∀ a, 0 ≤ d.start j idx a + d.window j a ∧ d.start j idx a + d.window j a < s.size a := fun a => by
      have := hh a; have := (i a).isLt; omega
    rw [dif_pos hc]
    refine congrArg some (funext fun a => Fin.ext ?_)
    have := hh a
    show (d.start j idx a + (d.window j a : Int)).toNat = (i a).val
    omega

/-! ## The two scatters' dimension numbers, over `n` nodes and 2000000 edges -/

/-- The edge list's shape: one entry per edge … -/
abbrev E : Shape := ⟨1, ![2000000]⟩
/-- … and the same with a trailing unit axis (the scatter indices' shape, and the one-column updates'). -/
abbrev E1 : Shape := ⟨2, ![2000000, 1]⟩

variable (n : Nat)

/-- Scatter of a vector of updates into a vector of `n` nodes: no window axis, the node axis inserted. -/
abbrev dK (h : ScatterDims.WF ⟨1, ![n]⟩ E1 E [] [0] [0] 1) : ScatterDims ⟨1, ![n]⟩ E1 E := ⟨[], [0], [0], 1, h⟩
/-- Scatter of a one-column matrix of updates into a one-column matrix of `n` nodes: the column is the window axis. -/
abbrev dR (h : ScatterDims.WF ⟨2, ![n, 1]⟩ E1 E1 [1] [0] [0] 1) : ScatterDims ⟨2, ![n, 1]⟩ E1 E1 := ⟨[1], [0], [0], 1, h⟩

theorem fin1_eq (a : Fin 1) : a = ⟨0, Nat.one_pos⟩ := Fin.ext (by omega)

/-- Edge `j` reads its start index at row `j`, column `0` of the scatter indices. -/
theorem dK_siIdx (h) (j : E.Idx) (c) : (dK n h).siIdx j c = ix2 (j 0) 0 := by
  funext b
  match b with
  | ⟨0, _⟩ => rfl
  | ⟨1, _⟩ =>
    apply Fin.ext
    show c.val = 0
    have : c.val < 1 := c.isLt
    omega

/-- The start on the node axis is the edge's scatter index, read signed. -/
theorem dK_start (h) (j : E.Idx) (idx : IVec E1 32) (a : Fin 1) : (dK n h).start j idx a = (idx (ix2 (j 0) 0)).toInt := by
  obtain rfl := fin1_eq a
  unfold ScatterDims.start
  have hm : (⟨0, Nat.one_pos⟩ : Fin 1) ∈ (dK n h).scatterDimsToOperandDims := List.mem_singleton.2 rfl
  rw [dif_pos hm, dK_siIdx]
  rfl

/-- The node axis is an inserted axis: its window coordinate is zero. -/
theorem dK_window (h) (j : E.Idx) (a : Fin 1) : (dK n h).window j a = 0 := by
  obtain rfl := fin1_eq a
  rfl

/-- Edge row `j` reads its start index at row `j 0`, column `0` of the scatter indices. -/
theorem dR_siIdx (h) (j : E1.Idx) (c) : (dR n h).siIdx j c = ix2 (j 0) 0 := by
  funext b
  match b with
  | ⟨0, _⟩ => rfl
  | ⟨1, _⟩ =>
    apply Fin.ext
    show c.val = 0
    have : c.val < 1 := c.isLt
    omega

/-- On the node axis the start is the edge's scatter index, read signed … -/
theorem dR_start0 (h) (j : E1.Idx) (idx : IVec E1 32) : (dR n h).start j idx (0 : Fin 2) = (idx (ix2 (j 0) 0)).toInt := by
  unfold ScatterDims.start
  have hm : (0 : Fin 2) ∈ (dR n h).scatterDimsToOperandDims := List.mem_singleton.2 rfl
  rw [dif_pos hm, dR_siIdx]
  rfl

/-- … and on the column axis, which no scatter index addresses, it is zero. -/
theorem dR_start1 (h) (j : E1.Idx) (idx : IVec E1 32) : (dR n h).start j idx (1 : Fin 2) = 0 := by
  unfold ScatterDims.start
  have hm : ¬ (1 : Fin 2) ∈ (dR n h).scatterDimsToOperandDims := fun hh =>
    absurd (Fin.val_eq_of_eq (List.mem_singleton.1 hh)) (by show ¬ (1 : Nat) = 0; omega)
  rw [dif_neg hm]

/-- The node axis is inserted: window coordinate zero; the column axis takes the update's column. -/
theorem dR_window0 (h) (j : E1.Idx) : (dR n h).window j (0 : Fin 2) = 0 := rfl
theorem dR_window1 (h) (j : E1.Idx) : (dR n h).window j (1 : Fin 2) = (j 1).val := rfl

/-- Edge `j` lands on node `i` exactly when its scatter index, read signed, is `i`. -/
theorem dK_lands (hK) (j : E.Idx) (idx : IVec E1 32) (i : (⟨1, ![n]⟩ : Shape).Idx) :
    (dK n hK).resultIdx? j idx = some i ↔ (idx (ix2 (j 0) 0)).toInt = ((i 0).val : Int) := by
  rw [resultIdx?_eq_some_iff]
  constructor
  · intro hh
    have := hh (0 : Fin 1)
    rw [dK_start, dK_window] at this
    simpa using this
  · intro hh a
    rw [dK_start, dK_window]
    obtain rfl := fin1_eq a
    simpa using hh

/-- Edge row `j` lands on node row `i` exactly when its scatter index, read signed, is `i`'s node: both columns are `0`. -/
theorem dR_lands (hR) (j : E1.Idx) (idx : IVec E1 32) (i : (⟨2, ![n, 1]⟩ : Shape).Idx) :
    (dR n hR).resultIdx? j idx = some i ↔ (idx (ix2 (j 0) 0)).toInt = ((i 0).val : Int) := by
  rw [resultIdx?_eq_some_iff]
  have hj1 : (j 1).val = 0 := by have : (j 1).val < 1 := (j 1).isLt; omega
  have hi1 : (i 1).val = 0 := by have : (i 1).val < 1 := (i 1).isLt; omega
  constructor
  · intro hh
    have := hh (0 : Fin 2)
    rw [dR_start0, dR_window0] at this
    simpa using this
  · intro hh a
    match a with
    | ⟨0, _⟩ =>
      show (dR n hR).start j idx (0 : Fin 2) + ((dR n hR).window j (0 : Fin 2) : Int) = ((i 0).val : Int)
      rw [dR_start0, dR_window0]; simpa using hh
    | ⟨1, _⟩ =>
      show (dR n hR).start j idx (1 : Fin 2) + ((dR n hR).window j (1 : Fin 2) : Int) = ((i 1).val : Int)
      rw [dR_start1, dR_window1, hj1, hi1]; rfl

/-- The rows of a one-column edge matrix are the edges: `(j, 0) ↦ j`. -/
def rowEquiv : E1.Idx ≃ E.Idx where
  toFun j := ix1 (n := 2000000) (j 0)
  invFun j := ix2 (n0 := 2000000) (n1 := 1) (j 0) 0
  left_inv j := by
    funext a
    match a with
    | ⟨0, _⟩ => rfl
    | ⟨1, _⟩ =>
      apply Fin.ext
      have : (j 1).val < 1 := (j 1).isLt
      show 0 = (j 1).val
      omega
  right_inv j := by
    funext a
    match a with
    | ⟨0, _⟩ => rfl

/-- The one-column scatter-add at row `i` is the vector scatter-add at `i`'s node, when the operands and the updates
    agree row by row: the updates that land on `i` are the rows `(j, 0)` of the edges `j` that land on `i`'s node. -/
theorem hostScatterAdd_um (hK) (hR) (xK : (⟨1, ![n]⟩ : Shape).Idx → EReal) (xR : (⟨2, ![n, 1]⟩ : Shape).Idx → EReal)
    (idx : IVec E1 32) (fK : E.Idx → EReal) (fR : E1.Idx → EReal)
    (hx : ∀ i, xR i = xK (ix1 (n := n) (i 0))) (hf : ∀ j, fR j = fK (ix1 (n := 2000000) (j 0))) (i : (⟨2, ![n, 1]⟩ : Shape).Idx) :
    Ideal.hostScatterAdd (dR n hR) xR idx fR i = Ideal.hostScatterAdd (dK n hK) xK idx fK (ix1 (n := n) (i 0)) := by
  unfold Ideal.hostScatterAdd
  rw [hx i]
  refine congrArg (fun z => xK (ix1 (n := n) (i 0)) + z) ?_
  refine Finset.sum_equiv rowEquiv ?_ ?_
  · intro j
    simp only [Finset.mem_filter, Finset.mem_univ, true_and]
    rw [dR_lands, dK_lands]
    rfl
  · intro j _
    exact hf j

end Cert.Bridge

end
-- ==== Proof.Counts.lean ====
/-
  The number of edges arriving at each node, clipped below at one, in the two programs.

  The kernel's program scatters one 1 per edge into a vector of zeros indexed by the destination nodes and then adds a
  trailing unit axis; the reference scatters a one-column matrix of ones into a one-column matrix of zeros.  Row r of
  the one is entry (r, 0) of the other: an edge lands on node r in the first exactly when its row lands on (r, 0) in
  the second (ScatterLemma), and the operands (zeros) and the updates (ones) agree row by row.  Both then take the
  maximum with 1.
-/
import proofs.«178897_j10419590660202_1_alg».proof.KernelIdeal
import proofs.«178897_j10419590660202_1_alg».proof.Proof.Gen.KernelIdeal
import proofs.«178897_j10419590660202_1_alg».proof.Proof.Gen.ReferenceIdeal.Read
import proofs.«178897_j10419590660202_1_alg».proof.Proof.ScatterLemma

noncomputable section

namespace Cert.Bridge

open Cert.KernelIdeal Cert.KernelIdeal.Gen Idealize.ShloMosaic Idealize.ShloMosaic.ValueIdx
open Cert.ReferenceIdeal.Read

/-- The kernel's count of the edges arriving at each of the 40000 movies, at least one. -/
def kcnt_um (x3 : (⟨S2000000, .i32⟩ : BufTy).Contents (Elt Ideal)) : (⟨S40000x1, .f32⟩ : BufTy).Contents (Elt Ideal) :=
  maximumf (F := Ideal) (broadcastInDim S40000x1 ![0] bcast_S40000_S40000x1_0 (Host.scatterAdd (F := Ideal) scatter_S40000_S2000000x1_S2000000_n_0_0_1 (broadcastInDim S40000 ![] bcast_S_S40000 (constant (F := Ideal) S_ .f32 0x00000000#32)) (broadcastInDim S2000000x1 ![0] bcast_S2000000_S2000000x1_0 x3) (broadcastInDim S2000000 ![] bcast_S_S2000000 (constant (F := Ideal) S_ .f32 0x3F800000#32)))) (broadcastInDim S40000x1 ![] bcast_S_S40000x1 (constant (F := Ideal) S_ .f32 0x3F800000#32))

/-- The kernel's count of the edges arriving at each of the 200000 users, at least one. -/
def kcnt_mu (x5 : (⟨S2000000, .i32⟩ : BufTy).Contents (Elt Ideal)) : (⟨S200000x1, .f32⟩ : BufTy).Contents (Elt Ideal) :=
  maximumf (F := Ideal) (broadcastInDim S200000x1 ![0] bcast_S200000_S200000x1_0 (Host.scatterAdd (F := Ideal) scatter_S200000_S2000000x1_S2000000_n_0_0_1 (broadcastInDim S200000 ![] bcast_S_S200000 (constant (F := Ideal) S_ .f32 0x00000000#32)) (broadcastInDim S2000000x1 ![0] bcast_S2000000_S2000000x1_0 x5) (broadcastInDim S2000000 ![] bcast_S_S2000000 (constant (F := Ideal) S_ .f32 0x3F800000#32)))) (broadcastInDim S200000x1 ![] bcast_S_S200000x1 (constant (F := Ideal) S_ .f32 0x3F800000#32))

-- every comparison below is syntactic: the sum over the 2000000 edges is never opened
attribute [local irreducible] Ideal.hostScatterAdd

/-- It is the reference's one-column count of the first layer … -/
theorem kcnt_um_eq_v29 (x3 : (⟨S2000000, .i32⟩ : BufTy).Contents (Elt Ideal)) :
    kcnt_um x3 = val_main_v29 (F := Ideal) x3 := by
  unfold kcnt_um val_main_v29 val_main_v27
  simp only [Host.scatterAdd, Ideal.hostScatterAdd_def]
  rw [show Cert.ReferenceIdeal.scatter_S40000x1_S2000000x1_S2000000x1_1_0_0_1 = dR 40000 (Cert.ReferenceIdeal.Facts₀.scatter_S40000x1_S2000000x1_S2000000x1_1_0_0_1_wf) from rfl,
    show scatter_S40000_S2000000x1_S2000000_n_0_0_1 = dK 40000 (Cert.KernelIdeal.Facts₀.scatter_S40000_S2000000x1_S2000000_n_0_0_1_wf) from rfl,
    show (broadcastInDim S2000000x1 ![0] bcast_S2000000_S2000000x1_0 x3) = val_main_v26 (F := Ideal) x3 from rfl]
  have key := hostScatterAdd_um 40000 (Cert.KernelIdeal.Facts₀.scatter_S40000_S2000000x1_S2000000_n_0_0_1_wf) (Cert.ReferenceIdeal.Facts₀.scatter_S40000x1_S2000000x1_S2000000x1_1_0_0_1_wf) (broadcastInDim S40000 ![] bcast_S_S40000 (constant (F := Ideal) S_ .f32 0x00000000#32)) (val_main_v25 (F := Ideal)) (val_main_v26 (F := Ideal) x3) (broadcastInDim S2000000 ![] bcast_S_S2000000 (constant (F := Ideal) S_ .f32 0x3F800000#32)) (val_main_v24 (F := Ideal)) (fun _ => rfl) (fun _ => rfl)
  generalize Ideal.hostScatterAdd (dK 40000 (Cert.KernelIdeal.Facts₀.scatter_S40000_S2000000x1_S2000000_n_0_0_1_wf)) (broadcastInDim S40000 ![] bcast_S_S40000 (constant (F := Ideal) S_ .f32 0x00000000#32)) (val_main_v26 (F := Ideal) x3) (broadcastInDim S2000000 ![] bcast_S_S2000000 (constant (F := Ideal) S_ .f32 0x3F800000#32)) = SK at key ⊢
  generalize Ideal.hostScatterAdd (dR 40000 (Cert.ReferenceIdeal.Facts₀.scatter_S40000x1_S2000000x1_S2000000x1_1_0_0_1_wf)) (val_main_v25 (F := Ideal)) (val_main_v26 (F := Ideal) x3) (val_main_v24 (F := Ideal)) = SR at key ⊢
  refine congrArg₂ (maximumf (F := Ideal) (s := S40000x1) (φ := .f32)) ?_ rfl
  funext i
  rw [broadcastInDim_apply _ bcast_S40000_S40000x1_0 SK i (ix1 (n := 40000) (i 0)) (fun a => match a with
    | ⟨0, _⟩ => by show (i 0).val = if (40000 : Nat) = 1 then 0 else (i 0).val; rw [if_neg (by decide)])]
  exact (key i).symm

/-- … and of the second layer (the reference recomputes it). -/
theorem kcnt_um_eq_v79 (x3 : (⟨S2000000, .i32⟩ : BufTy).Contents (Elt Ideal)) :
    kcnt_um x3 = val_main_v79 (F := Ideal) x3 := by
  unfold kcnt_um val_main_v79 val_main_v77
  simp only [Host.scatterAdd, Ideal.hostScatterAdd_def]
  rw [show Cert.ReferenceIdeal.scatter_S40000x1_S2000000x1_S2000000x1_1_0_0_1 = dR 40000 (Cert.ReferenceIdeal.Facts₀.scatter_S40000x1_S2000000x1_S2000000x1_1_0_0_1_wf) from rfl,
    show scatter_S40000_S2000000x1_S2000000_n_0_0_1 = dK 40000 (Cert.KernelIdeal.Facts₀.scatter_S40000_S2000000x1_S2000000_n_0_0_1_wf) from rfl,
    show (broadcastInDim S2000000x1 ![0] bcast_S2000000_S2000000x1_0 x3) = val_main_v76 (F := Ideal) x3 from rfl]
  have key := hostScatterAdd_um 40000 (Cert.KernelIdeal.Facts₀.scatter_S40000_S2000000x1_S2000000_n_0_0_1_wf) (Cert.ReferenceIdeal.Facts₀.scatter_S40000x1_S2000000x1_S2000000x1_1_0_0_1_wf) (broadcastInDim S40000 ![] bcast_S_S40000 (constant (F := Ideal) S_ .f32 0x00000000#32)) (val_main_v75 (F := Ideal)) (val_main_v76 (F := Ideal) x3) (broadcastInDim S2000000 ![] bcast_S_S2000000 (constant (F := Ideal) S_ .f32 0x3F800000#32)) (val_main_v74 (F := Ideal)) (fun _ => rfl) (fun _ => rfl)
  generalize Ideal.hostScatterAdd (dK 40000 (Cert.KernelIdeal.Facts₀.scatter_S40000_S2000000x1_S2000000_n_0_0_1_wf)) (broadcastInDim S40000 ![] bcast_S_S40000 (constant (F := Ideal) S_ .f32 0x00000000#32)) (val_main_v76 (F := Ideal) x3) (broadcastInDim S2000000 ![] bcast_S_S2000000 (constant (F := Ideal) S_ .f32 0x3F800000#32)) = SK at key ⊢
  generalize Ideal.hostScatterAdd (dR 40000 (Cert.ReferenceIdeal.Facts₀.scatter_S40000x1_S2000000x1_S2000000x1_1_0_0_1_wf)) (val_main_v75 (F := Ideal)) (val_main_v76 (F := Ideal) x3) (val_main_v74 (F := Ideal)) = SR at key ⊢
  refine congrArg₂ (maximumf (F := Ideal) (s := S40000x1) (φ := .f32)) ?_ rfl
  funext i
  rw [broadcastInDim_apply _ bcast_S40000_S40000x1_0 SK i (ix1 (n := 40000) (i 0)) (fun a => match a with
    | ⟨0, _⟩ => by show (i 0).val = if (40000 : Nat) = 1 then 0 else (i 0).val; rw [if_neg (by decide)])]
  exact (key i).symm

/-- The users' count is the reference's of the first layer … -/
theorem kcnt_mu_eq_v54 (x5 : (⟨S2000000, .i32⟩ : BufTy).Contents (Elt Ideal)) :
    kcnt_mu x5 = val_main_v54 (F := Ideal) x5 := by
  unfold kcnt_mu val_main_v54 val_main_v52
  simp only [Host.scatterAdd, Ideal.hostScatterAdd_def]
  rw [show Cert.ReferenceIdeal.scatter_S200000x1_S2000000x1_S2000000x1_1_0_0_1 = dR 200000 (Cert.ReferenceIdeal.Facts₀.scatter_S200000x1_S2000000x1_S2000000x1_1_0_0_1_wf) from rfl,
    show scatter_S200000_S2000000x1_S2000000_n_0_0_1 = dK 200000 (Cert.KernelIdeal.Facts₀.scatter_S200000_S2000000x1_S2000000_n_0_0_1_wf) from rfl,
    show (broadcastInDim S2000000x1 ![0] bcast_S2000000_S2000000x1_0 x5) = val_main_v51 (F := Ideal) x5 from rfl]
  have key := hostScatterAdd_um 200000 (Cert.KernelIdeal.Facts₀.scatter_S200000_S2000000x1_S2000000_n_0_0_1_wf) (Cert.ReferenceIdeal.Facts₀.scatter_S200000x1_S2000000x1_S2000000x1_1_0_0_1_wf) (broadcastInDim S200000 ![] bcast_S_S200000 (constant (F := Ideal) S_ .f32 0x00000000#32)) (val_main_v50 (F := Ideal)) (val_main_v51 (F := Ideal) x5) (broadcastInDim S2000000 ![] bcast_S_S2000000 (constant (F := Ideal) S_ .f32 0x3F800000#32)) (val_main_v49 (F := Ideal)) (fun _ => rfl) (fun _ => rfl)
  generalize Ideal.hostScatterAdd (dK 200000 (Cert.KernelIdeal.Facts₀.scatter_S200000_S2000000x1_S2000000_n_0_0_1_wf)) (broadcastInDim S200000 ![] bcast_S_S200000 (constant (F := Ideal) S_ .f32 0x00000000#32)) (val_main_v51 (F := Ideal) x5) (broadcastInDim S2000000 ![] bcast_S_S2000000 (constant (F := Ideal) S_ .f32 0x3F800000#32)) = SK at key ⊢
  generalize Ideal.hostScatterAdd (dR 200000 (Cert.ReferenceIdeal.Facts₀.scatter_S200000x1_S2000000x1_S2000000x1_1_0_0_1_wf)) (val_main_v50 (F := Ideal)) (val_main_v51 (F := Ideal) x5) (val_main_v49 (F := Ideal)) = SR at key ⊢
  refine congrArg₂ (maximumf (F := Ideal) (s := S200000x1) (φ := .f32)) ?_ rfl
  funext i
  rw [broadcastInDim_apply _ bcast_S200000_S200000x1_0 SK i (ix1 (n := 200000) (i 0)) (fun a => match a with
    | ⟨0, _⟩ => by show (i 0).val = if (200000 : Nat) = 1 then 0 else (i 0).val; rw [if_neg (by decide)])]
  exact (key i).symm

/-- … and of the second layer. -/
theorem kcnt_mu_eq_v103 (x5 : (⟨S2000000, .i32⟩ : BufTy).Contents (Elt Ideal)) :
    kcnt_mu x5 = val_main_v103 (F := Ideal) x5 := by
  unfold kcnt_mu val_main_v103 val_main_v101
  simp only [Host.scatterAdd, Ideal.hostScatterAdd_def]
  rw [show Cert.ReferenceIdeal.scatter_S200000x1_S2000000x1_S2000000x1_1_0_0_1 = dR 200000 (Cert.ReferenceIdeal.Facts₀.scatter_S200000x1_S2000000x1_S2000000x1_1_0_0_1_wf) from rfl,
    show scatter_S200000_S2000000x1_S2000000_n_0_0_1 = dK 200000 (Cert.KernelIdeal.Facts₀.scatter_S200000_S2000000x1_S2000000_n_0_0_1_wf) from rfl,
    show (broadcastInDim S2000000x1 ![0] bcast_S2000000_S2000000x1_0 x5) = val_main_v100 (F := Ideal) x5 from rfl]
  have key := hostScatterAdd_um 200000 (Cert.KernelIdeal.Facts₀.scatter_S200000_S2000000x1_S2000000_n_0_0_1_wf) (Cert.ReferenceIdeal.Facts₀.scatter_S200000x1_S2000000x1_S2000000x1_1_0_0_1_wf) (broadcastInDim S200000 ![] bcast_S_S200000 (constant (F := Ideal) S_ .f32 0x00000000#32)) (val_main_v99 (F := Ideal)) (val_main_v100 (F := Ideal) x5) (broadcastInDim S2000000 ![] bcast_S_S2000000 (constant (F := Ideal) S_ .f32 0x3F800000#32)) (val_main_v98 (F := Ideal)) (fun _ => rfl) (fun _ => rfl)
  generalize Ideal.hostScatterAdd (dK 200000 (Cert.KernelIdeal.Facts₀.scatter_S200000_S2000000x1_S2000000_n_0_0_1_wf)) (broadcastInDim S200000 ![] bcast_S_S200000 (constant (F := Ideal) S_ .f32 0x00000000#32)) (val_main_v100 (F := Ideal) x5) (broadcastInDim S2000000 ![] bcast_S_S2000000 (constant (F := Ideal) S_ .f32 0x3F800000#32)) = SK at key ⊢
  generalize Ideal.hostScatterAdd (dR 200000 (Cert.ReferenceIdeal.Facts₀.scatter_S200000x1_S2000000x1_S2000000x1_1_0_0_1_wf)) (val_main_v99 (F := Ideal)) (val_main_v100 (F := Ideal) x5) (val_main_v98 (F := Ideal)) = SR at key ⊢
  refine congrArg₂ (maximumf (F := Ideal) (s := S200000x1) (φ := .f32)) ?_ rfl
  funext i
  rw [broadcastInDim_apply _ bcast_S200000_S200000x1_0 SK i (ix1 (n := 200000) (i 0)) (fun a => match a with
    | ⟨0, _⟩ => by show (i 0).val = if (200000 : Nat) = 1 then 0 else (i 0).val; rw [if_neg (by decide)])]
  exact (key i).symm

end Cert.Bridge

end
-- ==== Proof.Fold1.lean ====
/-
  The buffers at the first region's entry and exit, as the reference's stages of the arguments.

  Before the first region the host gathers the two feature tables at the node ids, counts the edges arriving at each
  node (at least one), and forms the movies' first aggregated mean: the users' features gathered along the edges, added
  up per destination movie, divided by the count.  These are the same operations, on the same dimension records, as the
  reference's, except that the reference counts with a unit trailing axis; the count lemma closes that difference.
  The first region then writes the movies' first-layer embeddings; everything else it leaves as it was.
-/
import proofs.«178897_j10419590660202_1_alg».proof.Proof.Gen.KernelIdeal.Frame
import proofs.«178897_j10419590660202_1_alg».proof.Proof.Gen.ReferenceIdeal.Read
import proofs.«178897_j10419590660202_1_alg».proof.Proof.Region0
import proofs.«178897_j10419590660202_1_alg».proof.Proof.SpecRef
import proofs.«178897_j10419590660202_1_alg».proof.Proof.HostFold
import proofs.«178897_j10419590660202_1_alg».proof.Proof.Counts
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- The arguments on core `c`. -/
abbrev a0 (c : Dev nD) : Buf (Elt Ideal) ((c : Thread nD τ).loc main_arg0) := m ((c : Thread nD τ).loc main_arg0)
abbrev a1 (c : Dev nD) : Buf (Elt Ideal) ((c : Thread nD τ).loc main_arg1) := m ((c : Thread nD τ).loc main_arg1)
abbrev a2 (c : Dev nD) : Buf (Elt Ideal) ((c : Thread nD τ).loc main_arg2) := m ((c : Thread nD τ).loc main_arg2)
abbrev a3 (c : Dev nD) : Buf (Elt Ideal) ((c : Thread nD τ).loc main_arg3) := m ((c : Thread nD τ).loc main_arg3)
abbrev a4 (c : Dev nD) : Buf (Elt Ideal) ((c : Thread nD τ).loc main_arg4) := m ((c : Thread nD τ).loc main_arg4)
abbrev a5 (c : Dev nD) : Buf (Elt Ideal) ((c : Thread nD τ).loc main_arg5) := m ((c : Thread nD τ).loc main_arg5)
abbrev a6 (c : Dev nD) : Buf (Elt Ideal) ((c : Thread nD τ).loc main_arg6) := m ((c : Thread nD τ).loc main_arg6)
abbrev a7 (c : Dev nD) : Buf (Elt Ideal) ((c : Thread nD τ).loc main_arg7) := m ((c : Thread nD τ).loc main_arg7)
abbrev a8 (c : Dev nD) : Buf (Elt Ideal) ((c : Thread nD τ).loc main_arg8) := m ((c : Thread nD τ).loc main_arg8)
abbrev a9 (c : Dev nD) : Buf (Elt Ideal) ((c : Thread nD τ).loc main_arg9) := m ((c : Thread nD τ).loc main_arg9)
abbrev a10 (c : Dev nD) : Buf (Elt Ideal) ((c : Thread nD τ).loc main_arg10) := m ((c : Thread nD τ).loc main_arg10)
abbrev a11 (c : Dev nD) : Buf (Elt Ideal) ((c : Thread nD τ).loc main_arg11) := m ((c : Thread nD τ).loc main_arg11)
abbrev a12 (c : Dev nD) : Buf (Elt Ideal) ((c : Thread nD τ).loc main_arg12) := m ((c : Thread nD τ).loc main_arg12)
abbrev a13 (c : Dev nD) : Buf (Elt Ideal) ((c : Thread nD τ).loc main_arg13) := m ((c : Thread nD τ).loc main_arg13)
abbrev a14 (c : Dev nD) : Buf (Elt Ideal) ((c : Thread nD τ).loc main_arg14) := m ((c : Thread nD τ).loc main_arg14)
abbrev a15 (c : Dev nD) : Buf (Elt Ideal) ((c : Thread nD τ).loc main_arg15) := m ((c : Thread nD τ).loc main_arg15)
abbrev a16 (c : Dev nD) : Buf (Elt Ideal) ((c : Thread nD τ).loc main_arg16) := m ((c : Thread nD τ).loc main_arg16)
abbrev a17 (c : Dev nD) : Buf (Elt Ideal) ((c : Thread nD τ).loc main_arg17) := m ((c : Thread nD τ).loc main_arg17)
abbrev a18 (c : Dev nD) : Buf (Elt Ideal) ((c : Thread nD τ).loc main_arg18) := m ((c : Thread nD τ).loc main_arg18)
abbrev a19 (c : Dev nD) : Buf (Elt Ideal) ((c : Thread nD τ).loc main_arg19) := m ((c : Thread nD τ).loc main_arg19)

/-- The kernel's clipped count of edges per movie, spelt out, is its named function. -/
theorem cf_um (x3 : (⟨S2000000, .i32⟩ : BufTy).Contents (Elt Ideal)) :
    maximumf (F := Ideal) (broadcastInDim S40000x1 ![0] bcast_S40000_S40000x1_0 (Host.scatterAdd (F := Ideal) scatter_S40000_S2000000x1_S2000000_n_0_0_1 (broadcastInDim S40000 ![] bcast_S_S40000 (constant (F := Ideal) S_ .f32 0x00000000#32)) (broadcastInDim S2000000x1 ![0] bcast_S2000000_S2000000x1_0 x3) (broadcastInDim S2000000 ![] bcast_S_S2000000 (constant (F := Ideal) S_ .f32 0x3F800000#32)))) (broadcastInDim S40000x1 ![] bcast_S_S40000x1 (constant (F := Ideal) S_ .f32 0x3F800000#32))
      = Cert.Bridge.kcnt_um x3 := rfl
/-- The kernel's clipped count of edges per user, spelt out, is its named function. -/
theorem cf_mu (x5 : (⟨S2000000, .i32⟩ : BufTy).Contents (Elt Ideal)) :
    maximumf (F := Ideal) (broadcastInDim S200000x1 ![0] bcast_S200000_S200000x1_0 (Host.scatterAdd (F := Ideal) scatter_S200000_S2000000x1_S2000000_n_0_0_1 (broadcastInDim S200000 ![] bcast_S_S200000 (constant (F := Ideal) S_ .f32 0x00000000#32)) (broadcastInDim S2000000x1 ![0] bcast_S2000000_S2000000x1_0 x5) (broadcastInDim S2000000 ![] bcast_S_S2000000 (constant (F := Ideal) S_ .f32 0x3F800000#32)))) (broadcastInDim S200000x1 ![] bcast_S_S200000x1 (constant (F := Ideal) S_ .f32 0x3F800000#32))
      = Cert.Bridge.kcnt_mu x5 := rfl

/-! ## After the first host stretch -/

theorem w1_v6 (c : Dev nD) : W1 (F := Ideal) m ρ c (Proc.devRef .tc main_v6) = val_main_v6 (F := Ideal) (a0 m c) (a6 m c) := by
  show StableHlo.after hostOps0 (W0 m ρ c) (Proc.devRef .tc main_v6) = _
  after_results_simp <;> rfl

theorem w1_v13 (c : Dev nD) : W1 (F := Ideal) m ρ c (Proc.devRef .tc main_v13) = val_main_v13 (F := Ideal) (a1 m c) (a7 m c) := by
  show StableHlo.after hostOps0 (W0 m ρ c) (Proc.devRef .tc main_v13) = _
  after_results_simp <;> rfl

theorem w1_arg2 (c : Dev nD) : W1 (F := Ideal) m ρ c (Proc.devRef .tc main_arg2) = a2 m c := by
  show StableHlo.after hostOps0 (W0 m ρ c) (Proc.devRef .tc main_arg2) = _
  after_results_simp <;> rfl

theorem w1_arg3 (c : Dev nD) : W1 (F := Ideal) m ρ c (Proc.devRef .tc main_arg3) = a3 m c := by
  show StableHlo.after hostOps0 (W0 m ρ c) (Proc.devRef .tc main_arg3) = _
  after_results_simp <;> rfl

theorem w1_arg4 (c : Dev nD) : W1 (F := Ideal) m ρ c (Proc.devRef .tc main_arg4) = a4 m c := by
  show StableHlo.after hostOps0 (W0 m ρ c) (Proc.devRef .tc main_arg4) = _
  after_results_simp <;> rfl

theorem w1_arg5 (c : Dev nD) : W1 (F := Ideal) m ρ c (Proc.devRef .tc main_arg5) = a5 m c := by
  show StableHlo.after hostOps0 (W0 m ρ c) (Proc.devRef .tc main_arg5) = _
  after_results_simp <;> rfl

theorem w1_arg8 (c : Dev nD) : W1 (F := Ideal) m ρ c (Proc.devRef .tc main_arg8) = a8 m c := by
  show StableHlo.after hostOps0 (W0 m ρ c) (Proc.devRef .tc main_arg8) = _
  after_results_simp <;> rfl

theorem w1_arg9 (c : Dev nD) : W1 (F := Ideal) m ρ c (Proc.devRef .tc main_arg9) = a9 m c := by
  show StableHlo.after hostOps0 (W0 m ρ c) (Proc.devRef .tc main_arg9) = _
  after_results_simp <;> rfl

theorem w1_arg10 (c : Dev nD) : W1 (F := Ideal) m ρ c (Proc.devRef .tc main_arg10) = a10 m c := by
  show StableHlo.after hostOps0 (W0 m ρ c) (Proc.devRef .tc main_arg10) = _
  after_results_simp <;> rfl

theorem w1_arg11 (c : Dev nD) : W1 (F := Ideal) m ρ c (Proc.devRef .tc main_arg11) = a11 m c := by
  show StableHlo.after hostOps0 (W0 m ρ c) (Proc.devRef .tc main_arg11) = _
  after_results_simp <;> rfl

theorem w1_arg12 (c : Dev nD) : W1 (F := Ideal) m ρ c (Proc.devRef .tc main_arg12) = a12 m c := by
  show StableHlo.after hostOps0 (W0 m ρ c) (Proc.devRef .tc main_arg12) = _
  after_results_simp <;> rfl

theorem w1_arg13 (c : Dev nD) : W1 (F := Ideal) m ρ c (Proc.devRef .tc main_arg13) = a13 m c := by
  show StableHlo.after hostOps0 (W0 m ρ c) (Proc.devRef .tc main_arg13) = _
  after_results_simp <;> rfl

theorem w1_arg14 (c : Dev nD) : W1 (F := Ideal) m ρ c (Proc.devRef .tc main_arg14) = a14 m c := by
  show StableHlo.after hostOps0 (W0 m ρ c) (Proc.devRef .tc main_arg14) = _
  after_results_simp <;> rfl

theorem w1_arg15 (c : Dev nD) : W1 (F := Ideal) m ρ c (Proc.devRef .tc main_arg15) = a15 m c := by
  show StableHlo.after hostOps0 (W0 m ρ c) (Proc.devRef .tc main_arg15) = _
  after_results_simp <;> rfl

theorem w1_arg16 (c : Dev nD) : W1 (F := Ideal) m ρ c (Proc.devRef .tc main_arg16) = a16 m c := by
  show StableHlo.after hostOps0 (W0 m ρ c) (Proc.devRef .tc main_arg16) = _
  after_results_simp <;> rfl

theorem w1_arg17 (c : Dev nD) : W1 (F := Ideal) m ρ c (Proc.devRef .tc main_arg17) = a17 m c := by
  show StableHlo.after hostOps0 (W0 m ρ c) (Proc.devRef .tc main_arg17) = _
  after_results_simp <;> rfl

theorem w1_arg18 (c : Dev nD) : W1 (F := Ideal) m ρ c (Proc.devRef .tc main_arg18) = a18 m c := by
  show StableHlo.after hostOps0 (W0 m ρ c) (Proc.devRef .tc main_arg18) = _
  after_results_simp <;> rfl

theorem w1_arg19 (c : Dev nD) : W1 (F := Ideal) m ρ c (Proc.devRef .tc main_arg19) = a19 m c := by
  show StableHlo.after hostOps0 (W0 m ρ c) (Proc.devRef .tc main_arg19) = _
  after_results_simp <;> rfl

theorem w1_v20 (c : Dev nD) : W1 (F := Ideal) m ρ c (Proc.devRef .tc main_v20) = Cert.Bridge.kcnt_um (a3 m c) := by
  show StableHlo.after hostOps0 (W0 m ρ c) (Proc.devRef .tc main_v20) = _
  after_results_simp
  exact cf_um _

theorem w1_v26 (c : Dev nD) : W1 (F := Ideal) m ρ c (Proc.devRef .tc main_v26) = Cert.Bridge.kcnt_mu (a5 m c) := by
  show StableHlo.after hostOps0 (W0 m ρ c) (Proc.devRef .tc main_v26) = _
  after_results_simp
  exact cf_mu _

/-- The movies' first aggregated mean. -/
theorem w1_v38 (c : Dev nD) : W1 (F := Ideal) m ρ c (Proc.devRef .tc main_v38) = val_main_v31 (F := Ideal) (a0 m c) (a2 m c) (a3 m c) (a6 m c) := by
  show StableHlo.after hostOps0 (W0 m ρ c) (Proc.devRef .tc main_v38) = _
  after_results_simp
  rw [hf_v6, hf_v20, hf_v23, cf_um, Cert.Bridge.kcnt_um_eq_v29, hf_v30, hf_v31]

/-! ## After the first region -/

/-- The movies' first-layer embeddings. -/
theorem w2_v39 (c : Dev nD) : W2 (F := Ideal) m ρ c (Proc.devRef .tc main_v39) = val_main_v38 (F := Ideal) (a0 m c) (a1 m c) (a2 m c) (a3 m c) (a6 m c) (a7 m c) (a8 m c) (a9 m c) (a16 m c) := by
  refine (W2_arr m ρ c 5).trans ((arr0 (V1 m ρ) c).trans ?_)
  show combReluM (W1 m ρ c (Proc.devRef .tc main_v38)) (W1 m ρ c (Proc.devRef .tc main_v13)) (W1 m ρ c (Proc.devRef .tc main_arg8)) (W1 m ρ c (Proc.devRef .tc main_arg9)) (W1 m ρ c (Proc.devRef .tc main_arg16)) = _
  rw [w1_v38, w1_v13, w1_arg8, w1_arg9, w1_arg16]
  exact Cert.Bridge.ref_m1 _ _ _ _ _ _ _ _ _

theorem w2_v6 (c : Dev nD) : W2 (F := Ideal) m ρ c (Proc.devRef .tc main_v6) = val_main_v6 (F := Ideal) (a0 m c) (a6 m c) :=
  (W2_of_ne m ρ c main_v6 (by decide)).trans (w1_v6 m ρ c)

theorem w2_v20 (c : Dev nD) : W2 (F := Ideal) m ρ c (Proc.devRef .tc main_v20) = Cert.Bridge.kcnt_um (a3 m c) :=
  (W2_of_ne m ρ c main_v20 (by decide)).trans (w1_v20 m ρ c)

theorem w2_v26 (c : Dev nD) : W2 (F := Ideal) m ρ c (Proc.devRef .tc main_v26) = Cert.Bridge.kcnt_mu (a5 m c) :=
  (W2_of_ne m ρ c main_v26 (by decide)).trans (w1_v26 m ρ c)

theorem w2_arg2 (c : Dev nD) : W2 (F := Ideal) m ρ c (Proc.devRef .tc main_arg2) = a2 m c :=
  (W2_of_ne m ρ c main_arg2 (by decide)).trans (w1_arg2 m ρ c)

theorem w2_arg3 (c : Dev nD) : W2 (F := Ideal) m ρ c (Proc.devRef .tc main_arg3) = a3 m c :=
  (W2_of_ne m ρ c main_arg3 (by decide)).trans (w1_arg3 m ρ c)

theorem w2_arg4 (c : Dev nD) : W2 (F := Ideal) m ρ c (Proc.devRef .tc main_arg4) = a4 m c :=
  (W2_of_ne m ρ c main_arg4 (by decide)).trans (w1_arg4 m ρ c)

theorem w2_arg5 (c : Dev nD) : W2 (F := Ideal) m ρ c (Proc.devRef .tc main_arg5) = a5 m c :=
  (W2_of_ne m ρ c main_arg5 (by decide)).trans (w1_arg5 m ρ c)

theorem w2_arg10 (c : Dev nD) : W2 (F := Ideal) m ρ c (Proc.devRef .tc main_arg10) = a10 m c :=
  (W2_of_ne m ρ c main_arg10 (by decide)).trans (w1_arg10 m ρ c)

theorem w2_arg11 (c : Dev nD) : W2 (F := Ideal) m ρ c (Proc.devRef .tc main_arg11) = a11 m c :=
  (W2_of_ne m ρ c main_arg11 (by decide)).trans (w1_arg11 m ρ c)

theorem w2_arg12 (c : Dev nD) : W2 (F := Ideal) m ρ c (Proc.devRef .tc main_arg12) = a12 m c :=
  (W2_of_ne m ρ c main_arg12 (by decide)).trans (w1_arg12 m ρ c)

theorem w2_arg13 (c : Dev nD) : W2 (F := Ideal) m ρ c (Proc.devRef .tc main_arg13) = a13 m c :=
  (W2_of_ne m ρ c main_arg13 (by decide)).trans (w1_arg13 m ρ c)

theorem w2_arg14 (c : Dev nD) : W2 (F := Ideal) m ρ c (Proc.devRef .tc main_arg14) = a14 m c :=
  (W2_of_ne m ρ c main_arg14 (by decide)).trans (w1_arg14 m ρ c)

theorem w2_arg15 (c : Dev nD) : W2 (F := Ideal) m ρ c (Proc.devRef .tc main_arg15) = a15 m c :=
  (W2_of_ne m ρ c main_arg15 (by decide)).trans (w1_arg15 m ρ c)

theorem w2_arg17 (c : Dev nD) : W2 (F := Ideal) m ρ c (Proc.devRef .tc main_arg17) = a17 m c :=
  (W2_of_ne m ρ c main_arg17 (by decide)).trans (w1_arg17 m ρ c)

theorem w2_arg18 (c : Dev nD) : W2 (F := Ideal) m ρ c (Proc.devRef .tc main_arg18) = a18 m c :=
  (W2_of_ne m ρ c main_arg18 (by decide)).trans (w1_arg18 m ρ c)

theorem w2_arg19 (c : Dev nD) : W2 (F := Ideal) m ρ c (Proc.devRef .tc main_arg19) = a19 m c :=
  (W2_of_ne m ρ c main_arg19 (by decide)).trans (w1_arg19 m ρ c)

theorem w2_v13 (c : Dev nD) : W2 (F := Ideal) m ρ c (Proc.devRef .tc main_v13) = val_main_v13 (F := Ideal) (a1 m c) (a7 m c) :=
  ((W2_arr m ρ c 1).trans (((dat0 (V1 m ρ) c).arrAt_in 1 rfl _).trans (A_eq0 (V1 m ρ) c 1))).trans (w1_v13 m ρ c)

end Cert.KernelIdeal.Fold

end
-- ==== Proof.Fold2.lean ====
/-
  The buffers at the second region's entry and exit.

  The second host stretch forms the users' first aggregated mean from the movies' features, which the first region
  only read; the second region writes the users' first-layer embeddings.
-/
import proofs.«178897_j10419590660202_1_alg».proof.Proof.Gen.KernelIdeal.Frame
import proofs.«178897_j10419590660202_1_alg».proof.Proof.Gen.ReferenceIdeal.Read
import proofs.«178897_j10419590660202_1_alg».proof.Proof.Region1
import proofs.«178897_j10419590660202_1_alg».proof.Proof.Fold1
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the second host stretch -/

theorem w3_v6 (c : Dev nD) : W3 (F := Ideal) m ρ c (Proc.devRef .tc main_v6) = val_main_v6 (F := Ideal) (a0 m c) (a6 m c) := by
  show StableHlo.after hostOps1 (W2 m ρ c) (Proc.devRef .tc main_v6) = _
  after_results_simp
  exact w2_v6 m ρ c

theorem w3_v20 (c : Dev nD) : W3 (F := Ideal) m ρ c (Proc.devRef .tc main_v20) = Cert.Bridge.kcnt_um (a3 m c) := by
  show StableHlo.after hostOps1 (W2 m ρ c) (Proc.devRef .tc main_v20) = _
  after_results_simp
  exact w2_v20 m ρ c

theorem w3_v26 (c : Dev nD) : W3 (F := Ideal) m ρ c (Proc.devRef .tc main_v26) = Cert.Bridge.kcnt_mu (a5 m c) := by
  show StableHlo.after hostOps1 (W2 m ρ c) (Proc.devRef .tc main_v26) = _
  after_results_simp
  exact w2_v26 m ρ c

theorem w3_v39 (c : Dev nD) : W3 (F := Ideal) m ρ c (Proc.devRef .tc main_v39) = val_main_v38 (F := Ideal) (a0 m c) (a1 m c) (a2 m c) (a3 m c) (a6 m c) (a7 m c) (a8 m c) (a9 m c) (a16 m c) := by
  show StableHlo.after hostOps1 (W2 m ρ c) (Proc.devRef .tc main_v39) = _
  after_results_simp
  exact w2_v39 m ρ c

theorem w3_arg2 (c : Dev nD) : W3 (F := Ideal) m ρ c (Proc.devRef .tc main_arg2) = a2 m c := by
  show StableHlo.after hostOps1 (W2 m ρ c) (Proc.devRef .tc main_arg2) = _
  after_results_simp
  exact w2_arg2 m ρ c

theorem w3_arg3 (c : Dev nD) : W3 (F := Ideal) m ρ c (Proc.devRef .tc main_arg3) = a3 m c := by
  show StableHlo.after hostOps1 (W2 m ρ c) (Proc.devRef .tc main_arg3) = _
  after_results_simp
  exact w2_arg3 m ρ c

theorem w3_arg4 (c : Dev nD) : W3 (F := Ideal) m ρ c (Proc.devRef .tc main_arg4) = a4 m c := by
  show StableHlo.after hostOps1 (W2 m ρ c) (Proc.devRef .tc main_arg4) = _
  after_results_simp
  exact w2_arg4 m ρ c

theorem w3_arg5 (c : Dev nD) : W3 (F := Ideal) m ρ c (Proc.devRef .tc main_arg5) = a5 m c := by
  show StableHlo.after hostOps1 (W2 m ρ c) (Proc.devRef .tc main_arg5) = _
  after_results_simp
  exact w2_arg5 m ρ c

theorem w3_arg10 (c : Dev nD) : W3 (F := Ideal) m ρ c (Proc.devRef .tc main_arg10) = a10 m c := by
  show StableHlo.after hostOps1 (W2 m ρ c) (Proc.devRef .tc main_arg10) = _
  after_results_simp
  exact w2_arg10 m ρ c

theorem w3_arg11 (c : Dev nD) : W3 (F := Ideal) m ρ c (Proc.devRef .tc main_arg11) = a11 m c := by
  show StableHlo.after hostOps1 (W2 m ρ c) (Proc.devRef .tc main_arg11) = _
  after_results_simp
  exact w2_arg11 m ρ c

theorem w3_arg12 (c : Dev nD) : W3 (F := Ideal) m ρ c (Proc.devRef .tc main_arg12) = a12 m c := by
  show StableHlo.after hostOps1 (W2 m ρ c) (Proc.devRef .tc main_arg12) = _
  after_results_simp
  exact w2_arg12 m ρ c

theorem w3_arg13 (c : Dev nD) : W3 (F := Ideal) m ρ c (Proc.devRef .tc main_arg13) = a13 m c := by
  show StableHlo.after hostOps1 (W2 m ρ c) (Proc.devRef .tc main_arg13) = _
  after_results_simp
  exact w2_arg13 m ρ c

theorem w3_arg14 (c : Dev nD) : W3 (F := Ideal) m ρ c (Proc.devRef .tc main_arg14) = a14 m c := by
  show StableHlo.after hostOps1 (W2 m ρ c) (Proc.devRef .tc main_arg14) = _
  after_results_simp
  exact w2_arg14 m ρ c

theorem w3_arg15 (c : Dev nD) : W3 (F := Ideal) m ρ c (Proc.devRef .tc main_arg15) = a15 m c := by
  show StableHlo.after hostOps1 (W2 m ρ c) (Proc.devRef .tc main_arg15) = _
  after_results_simp
  exact w2_arg15 m ρ c

theorem w3_arg17 (c : Dev nD) : W3 (F := Ideal) m ρ c (Proc.devRef .tc main_arg17) = a17 m c := by
  show StableHlo.after hostOps1 (W2 m ρ c) (Proc.devRef .tc main_arg17) = _
  after_results_simp
  exact w2_arg17 m ρ c

theorem w3_arg18 (c : Dev nD) : W3 (F := Ideal) m ρ c (Proc.devRef .tc main_arg18) = a18 m c := by
  show StableHlo.after hostOps1 (W2 m ρ c) (Proc.devRef .tc main_arg18) = _
  after_results_simp
  exact w2_arg18 m ρ c

theorem w3_arg19 (c : Dev nD) : W3 (F := Ideal) m ρ c (Proc.devRef .tc main_arg19) = a19 m c := by
  show StableHlo.after hostOps1 (W2 m ρ c) (Proc.devRef .tc main_arg19) = _
  after_results_simp
  exact w2_arg19 m ρ c

/-- The users' first aggregated mean. -/
theorem w3_v51 (c : Dev nD) : W3 (F := Ideal) m ρ c (Proc.devRef .tc main_v51) = val_main_v56 (F := Ideal) (a1 m c) (a4 m c) (a5 m c) (a7 m c) := by
  show StableHlo.after hostOps1 (W2 m ρ c) (Proc.devRef .tc main_v51) = _
  after_results_simp
  rw [w2_v13, w2_arg4, w2_arg5, w2_v26]
  rw [hf_v45, hf_v48, Cert.Bridge.kcnt_mu_eq_v54, hf_v55, hf_v56]

/-! ## After the second region -/

/-- The users' first-layer embeddings. -/
theorem w4_v52 (c : Dev nD) : W4 (F := Ideal) m ρ c (Proc.devRef .tc main_v52) = val_main_v63 (F := Ideal) (a0 m c) (a1 m c) (a4 m c) (a5 m c) (a6 m c) (a7 m c) (a10 m c) (a11 m c) (a17 m c) := by
  refine (W4_arr m ρ c 5).trans ((arr1 (V3 m ρ) c).trans ?_)
  show combReluU (W3 m ρ c (Proc.devRef .tc main_v51)) (W3 m ρ c (Proc.devRef .tc main_v6)) (W3 m ρ c (Proc.devRef .tc main_arg10)) (W3 m ρ c (Proc.devRef .tc main_arg11)) (W3 m ρ c (Proc.devRef .tc main_arg17)) = _
  rw [w3_v51, w3_v6, w3_arg10, w3_arg11, w3_arg17]
  exact Cert.Bridge.ref_u1 _ _ _ _ _ _ _ _ _

theorem w4_v20 (c : Dev nD) : W4 (F := Ideal) m ρ c (Proc.devRef .tc main_v20) = Cert.Bridge.kcnt_um (a3 m c) :=
  (W4_of_ne m ρ c main_v20 (by decide)).trans (w3_v20 m ρ c)

theorem w4_v26 (c : Dev nD) : W4 (F := Ideal) m ρ c (Proc.devRef .tc main_v26) = Cert.Bridge.kcnt_mu (a5 m c) :=
  (W4_of_ne m ρ c main_v26 (by decide)).trans (w3_v26 m ρ c)

theorem w4_v39 (c : Dev nD) : W4 (F := Ideal) m ρ c (Proc.devRef .tc main_v39) = val_main_v38 (F := Ideal) (a0 m c) (a1 m c) (a2 m c) (a3 m c) (a6 m c) (a7 m c) (a8 m c) (a9 m c) (a16 m c) :=
  (W4_of_ne m ρ c main_v39 (by decide)).trans (w3_v39 m ρ c)

theorem w4_arg2 (c : Dev nD) : W4 (F := Ideal) m ρ c (Proc.devRef .tc main_arg2) = a2 m c :=
  (W4_of_ne m ρ c main_arg2 (by decide)).trans (w3_arg2 m ρ c)

theorem w4_arg3 (c : Dev nD) : W4 (F := Ideal) m ρ c (Proc.devRef .tc main_arg3) = a3 m c :=
  (W4_of_ne m ρ c main_arg3 (by decide)).trans (w3_arg3 m ρ c)

theorem w4_arg4 (c : Dev nD) : W4 (F := Ideal) m ρ c (Proc.devRef .tc main_arg4) = a4 m c :=
  (W4_of_ne m ρ c main_arg4 (by decide)).trans (w3_arg4 m ρ c)

theorem w4_arg5 (c : Dev nD) : W4 (F := Ideal) m ρ c (Proc.devRef .tc main_arg5) = a5 m c :=
  (W4_of_ne m ρ c main_arg5 (by decide)).trans (w3_arg5 m ρ c)

theorem w4_arg12 (c : Dev nD) : W4 (F := Ideal) m ρ c (Proc.devRef .tc main_arg12) = a12 m c :=
  (W4_of_ne m ρ c main_arg12 (by decide)).trans (w3_arg12 m ρ c)

theorem w4_arg13 (c : Dev nD) : W4 (F := Ideal) m ρ c (Proc.devRef .tc main_arg13) = a13 m c :=
  (W4_of_ne m ρ c main_arg13 (by decide)).trans (w3_arg13 m ρ c)

theorem w4_arg14 (c : Dev nD) : W4 (F := Ideal) m ρ c (Proc.devRef .tc main_arg14) = a14 m c :=
  (W4_of_ne m ρ c main_arg14 (by decide)).trans (w3_arg14 m ρ c)

theorem w4_arg15 (c : Dev nD) : W4 (F := Ideal) m ρ c (Proc.devRef .tc main_arg15) = a15 m c :=
  (W4_of_ne m ρ c main_arg15 (by decide)).trans (w3_arg15 m ρ c)

theorem w4_arg18 (c : Dev nD) : W4 (F := Ideal) m ρ c (Proc.devRef .tc main_arg18) = a18 m c :=
  (W4_of_ne m ρ c main_arg18 (by decide)).trans (w3_arg18 m ρ c)

theorem w4_arg19 (c : Dev nD) : W4 (F := Ideal) m ρ c (Proc.devRef .tc main_arg19) = a19 m c :=
  (W4_of_ne m ρ c main_arg19 (by decide)).trans (w3_arg19 m ρ c)

end Cert.KernelIdeal.Fold

end
-- ==== Proof.Fold3.lean ====
/-
  The buffers at the third region's entry and exit.

  The third host stretch forms the movies' second aggregated mean from the users' first-layer embeddings; the third
  region writes the movies' second-layer embeddings, reading (not writing) their first-layer ones.
-/
import proofs.«178897_j10419590660202_1_alg».proof.Proof.Gen.KernelIdeal.Frame
import proofs.«178897_j10419590660202_1_alg».proof.Proof.Gen.ReferenceIdeal.Read
import proofs.«178897_j10419590660202_1_alg».proof.Proof.Region2
import proofs.«178897_j10419590660202_1_alg».proof.Proof.Fold2
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the third host stretch -/

theorem w5_v26 (c : Dev nD) : W5 (F := Ideal) m ρ c (Proc.devRef .tc main_v26) = Cert.Bridge.kcnt_mu (a5 m c) := by
  show StableHlo.after hostOps2 (W4 m ρ c) (Proc.devRef .tc main_v26) = _
  after_results_simp
  exact w4_v26 m ρ c

theorem w5_v39 (c : Dev nD) : W5 (F := Ideal) m ρ c (Proc.devRef .tc main_v39) = val_main_v38 (F := Ideal) (a0 m c) (a1 m c) (a2 m c) (a3 m c) (a6 m c) (a7 m c) (a8 m c) (a9 m c) (a16 m c) := by
  show StableHlo.after hostOps2 (W4 m ρ c) (Proc.devRef .tc main_v39) = _
  after_results_simp
  exact w4_v39 m ρ c

theorem w5_v52 (c : Dev nD) : W5 (F := Ideal) m ρ c (Proc.devRef .tc main_v52) = val_main_v63 (F := Ideal) (a0 m c) (a1 m c) (a4 m c) (a5 m c) (a6 m c) (a7 m c) (a10 m c) (a11 m c) (a17 m c) := by
  show StableHlo.after hostOps2 (W4 m ρ c) (Proc.devRef .tc main_v52) = _
  after_results_simp
  exact w4_v52 m ρ c

theorem w5_arg4 (c : Dev nD) : W5 (F := Ideal) m ρ c (Proc.devRef .tc main_arg4) = a4 m c := by
  show StableHlo.after hostOps2 (W4 m ρ c) (Proc.devRef .tc main_arg4) = _
  after_results_simp
  exact w4_arg4 m ρ c

theorem w5_arg5 (c : Dev nD) : W5 (F := Ideal) m ρ c (Proc.devRef .tc main_arg5) = a5 m c := by
  show StableHlo.after hostOps2 (W4 m ρ c) (Proc.devRef .tc main_arg5) = _
  after_results_simp
  exact w4_arg5 m ρ c

theorem w5_arg12 (c : Dev nD) : W5 (F := Ideal) m ρ c (Proc.devRef .tc main_arg12) = a12 m c := by
  show StableHlo.after hostOps2 (W4 m ρ c) (Proc.devRef .tc main_arg12) = _
  after_results_simp
  exact w4_arg12 m ρ c

theorem w5_arg13 (c : Dev nD) : W5 (F := Ideal) m ρ c (Proc.devRef .tc main_arg13) = a13 m c := by
  show StableHlo.after hostOps2 (W4 m ρ c) (Proc.devRef .tc main_arg13) = _
  after_results_simp
  exact w4_arg13 m ρ c

theorem w5_arg14 (c : Dev nD) : W5 (F := Ideal) m ρ c (Proc.devRef .tc main_arg14) = a14 m c := by
  show StableHlo.after hostOps2 (W4 m ρ c) (Proc.devRef .tc main_arg14) = _
  after_results_simp
  exact w4_arg14 m ρ c

theorem w5_arg15 (c : Dev nD) : W5 (F := Ideal) m ρ c (Proc.devRef .tc main_arg15) = a15 m c := by
  show StableHlo.after hostOps2 (W4 m ρ c) (Proc.devRef .tc main_arg15) = _
  after_results_simp
  exact w4_arg15 m ρ c

theorem w5_arg18 (c : Dev nD) : W5 (F := Ideal) m ρ c (Proc.devRef .tc main_arg18) = a18 m c := by
  show StableHlo.after hostOps2 (W4 m ρ c) (Proc.devRef .tc main_arg18) = _
  after_results_simp
  exact w4_arg18 m ρ c

theorem w5_arg19 (c : Dev nD) : W5 (F := Ideal) m ρ c (Proc.devRef .tc main_arg19) = a19 m c := by
  show StableHlo.after hostOps2 (W4 m ρ c) (Proc.devRef .tc main_arg19) = _
  after_results_simp
  exact w4_arg19 m ρ c

/-- The movies' second aggregated mean. -/
theorem w5_v64 (c : Dev nD) : W5 (F := Ideal) m ρ c (Proc.devRef .tc main_v64) = val_main_v81 (F := Ideal) (a0 m c) (a1 m c) (a2 m c) (a3 m c) (a4 m c) (a5 m c) (a6 m c) (a7 m c) (a10 m c) (a11 m c) (a17 m c) := by
  show StableHlo.after hostOps2 (W4 m ρ c) (Proc.devRef .tc main_v64) = _
  after_results_simp
  rw [w4_v52, w4_arg2, w4_arg3, w4_v20]
  rw [hf_v70, hf_v73, Cert.Bridge.kcnt_um_eq_v79, hf_v80, hf_v81]

/-! ## After the third region -/

/-- The movies' second-layer embeddings. -/
theorem w6_v65 (c : Dev nD) : W6 (F := Ideal) m ρ c (Proc.devRef .tc main_v65) = val_main_v87 (F := Ideal) (a0 m c) (a1 m c) (a2 m c) (a3 m c) (a4 m c) (a5 m c) (a6 m c) (a7 m c) (a8 m c) (a9 m c) (a10 m c) (a11 m c) (a12 m c) (a13 m c) (a16 m c) (a17 m c) (a18 m c) := by
  refine (W6_arr m ρ c 5).trans ((arr2 (V5 m ρ) c).trans ?_)
  show combM (W5 m ρ c (Proc.devRef .tc main_v64)) (W5 m ρ c (Proc.devRef .tc main_v39)) (W5 m ρ c (Proc.devRef .tc main_arg12)) (W5 m ρ c (Proc.devRef .tc main_arg13)) (W5 m ρ c (Proc.devRef .tc main_arg18)) = _
  rw [w5_v64, w5_v39, w5_arg12, w5_arg13, w5_arg18]
  exact Cert.Bridge.ref_m2 _ _ _ _ _ _ _ _ _ _ _ _ _ _ _ _ _

theorem w6_v26 (c : Dev nD) : W6 (F := Ideal) m ρ c (Proc.devRef .tc main_v26) = Cert.Bridge.kcnt_mu (a5 m c) :=
  (W6_of_ne m ρ c main_v26 (by decide)).trans (w5_v26 m ρ c)

theorem w6_v52 (c : Dev nD) : W6 (F := Ideal) m ρ c (Proc.devRef .tc main_v52) = val_main_v63 (F := Ideal) (a0 m c) (a1 m c) (a4 m c) (a5 m c) (a6 m c) (a7 m c) (a10 m c) (a11 m c) (a17 m c) :=
  (W6_of_ne m ρ c main_v52 (by decide)).trans (w5_v52 m ρ c)

theorem w6_arg4 (c : Dev nD) : W6 (F := Ideal) m ρ c (Proc.devRef .tc main_arg4) = a4 m c :=
  (W6_of_ne m ρ c main_arg4 (by decide)).trans (w5_arg4 m ρ c)

theorem w6_arg5 (c : Dev nD) : W6 (F := Ideal) m ρ c (Proc.devRef .tc main_arg5) = a5 m c :=
  (W6_of_ne m ρ c main_arg5 (by decide)).trans (w5_arg5 m ρ c)

theorem w6_arg14 (c : Dev nD) : W6 (F := Ideal) m ρ c (Proc.devRef .tc main_arg14) = a14 m c :=
  (W6_of_ne m ρ c main_arg14 (by decide)).trans (w5_arg14 m ρ c)

theorem w6_arg15 (c : Dev nD) : W6 (F := Ideal) m ρ c (Proc.devRef .tc main_arg15) = a15 m c :=
  (W6_of_ne m ρ c main_arg15 (by decide)).trans (w5_arg15 m ρ c)

theorem w6_arg19 (c : Dev nD) : W6 (F := Ideal) m ρ c (Proc.devRef .tc main_arg19) = a19 m c :=
  (W6_of_ne m ρ c main_arg19 (by decide)).trans (w5_arg19 m ρ c)

theorem w6_v39 (c : Dev nD) : W6 (F := Ideal) m ρ c (Proc.devRef .tc main_v39) = val_main_v38 (F := Ideal) (a0 m c) (a1 m c) (a2 m c) (a3 m c) (a6 m c) (a7 m c) (a8 m c) (a9 m c) (a16 m c) :=
  ((W6_arr m ρ c 1).trans (((dat2 (V5 m ρ) c).arrAt_in 1 rfl _).trans (A_eq2 (V5 m ρ) c 1))).trans (w5_v39 m ρ c)

end Cert.KernelIdeal.Fold

end
-- ==== Proof.Fold4.lean ====
/-
  The buffers at the last region's entry and exit: the two results.

  The last host stretch forms the users' second aggregated mean from the movies' first-layer embeddings; the last
  region writes the users' second-layer embeddings and leaves the movies' second-layer embeddings as the third region
  wrote them.
-/
import proofs.«178897_j10419590660202_1_alg».proof.Proof.Gen.KernelIdeal.Frame
import proofs.«178897_j10419590660202_1_alg».proof.Proof.Gen.ReferenceIdeal.Read
import proofs.«178897_j10419590660202_1_alg».proof.Proof.Region3
import proofs.«178897_j10419590660202_1_alg».proof.Proof.Fold3
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## After the last host stretch -/

theorem w7_v52 (c : Dev nD) : W7 (F := Ideal) m ρ c (Proc.devRef .tc main_v52) = val_main_v63 (F := Ideal) (a0 m c) (a1 m c) (a4 m c) (a5 m c) (a6 m c) (a7 m c) (a10 m c) (a11 m c) (a17 m c) := by
  show StableHlo.after hostOps3 (W6 m ρ c) (Proc.devRef .tc main_v52) = _
  after_results_simp
  exact w6_v52 m ρ c

theorem w7_v65 (c : Dev nD) : W7 (F := Ideal) m ρ c (Proc.devRef .tc main_v65) = val_main_v87 (F := Ideal) (a0 m c) (a1 m c) (a2 m c) (a3 m c) (a4 m c) (a5 m c) (a6 m c) (a7 m c) (a8 m c) (a9 m c) (a10 m c) (a11 m c) (a12 m c) (a13 m c) (a16 m c) (a17 m c) (a18 m c) := by
  show StableHlo.after hostOps3 (W6 m ρ c) (Proc.devRef .tc main_v65) = _
  after_results_simp
  exact w6_v65 m ρ c

theorem w7_arg14 (c : Dev nD) : W7 (F := Ideal) m ρ c (Proc.devRef .tc main_arg14) = a14 m c := by
  show StableHlo.after hostOps3 (W6 m ρ c) (Proc.devRef .tc main_arg14) = _
  after_results_simp
  exact w6_arg14 m ρ c

theorem w7_arg15 (c : Dev nD) : W7 (F := Ideal) m ρ c (Proc.devRef .tc main_arg15) = a15 m c := by
  show StableHlo.after hostOps3 (W6 m ρ c) (Proc.devRef .tc main_arg15) = _
  after_results_simp
  exact w6_arg15 m ρ c

theorem w7_arg19 (c : Dev nD) : W7 (F := Ideal) m ρ c (Proc.devRef .tc main_arg19) = a19 m c := by
  show StableHlo.after hostOps3 (W6 m ρ c) (Proc.devRef .tc main_arg19) = _
  after_results_simp
  exact w6_arg19 m ρ c

/-- The users' second aggregated mean. -/
theorem w7_v77 (c : Dev nD) : W7 (F := Ideal) m ρ c (Proc.devRef .tc main_v77) = val_main_v105 (F := Ideal) (a0 m c) (a1 m c) (a2 m c) (a3 m c) (a4 m c) (a5 m c) (a6 m c) (a7 m c) (a8 m c) (a9 m c) (a16 m c) := by
  show StableHlo.after hostOps3 (W6 m ρ c) (Proc.devRef .tc main_v77) = _
  after_results_simp
  rw [w6_v39, w6_arg4, w6_arg5, w6_v26]
  rw [hf_v94, hf_v97, Cert.Bridge.kcnt_mu_eq_v103, hf_v104, hf_v105]

/-! ## After the last region -/

/-- The users' second-layer embeddings: the first result. -/
theorem w8_v78 (c : Dev nD) : W8 (F := Ideal) m ρ c (Proc.devRef .tc main_v78) = val_main_v111 (F := Ideal) (a0 m c) (a1 m c) (a2 m c) (a3 m c) (a4 m c) (a5 m c) (a6 m c) (a7 m c) (a8 m c) (a9 m c) (a10 m c) (a11 m c) (a14 m c) (a15 m c) (a16 m c) (a17 m c) (a19 m c) := by
  refine (W8_arr m ρ c 5).trans ((arr3 (V7 m ρ) c).trans ?_)
  show combU (W7 m ρ c (Proc.devRef .tc main_v77)) (W7 m ρ c (Proc.devRef .tc main_v52)) (W7 m ρ c (Proc.devRef .tc main_arg14)) (W7 m ρ c (Proc.devRef .tc main_arg15)) (W7 m ρ c (Proc.devRef .tc main_arg19)) = _
  rw [w7_v77, w7_v52, w7_arg14, w7_arg15, w7_arg19]
  exact Cert.Bridge.ref_u2 _ _ _ _ _ _ _ _ _ _ _ _ _ _ _ _ _

/-- The movies' second-layer embeddings: the second result. -/
theorem w8_v65 (c : Dev nD) : W8 (F := Ideal) m ρ c (Proc.devRef .tc main_v65) = val_main_v87 (F := Ideal) (a0 m c) (a1 m c) (a2 m c) (a3 m c) (a4 m c) (a5 m c) (a6 m c) (a7 m c) (a8 m c) (a9 m c) (a10 m c) (a11 m c) (a12 m c) (a13 m c) (a16 m c) (a17 m c) (a18 m c) :=
  (W8_of_ne m ρ c main_v65 (by decide)).trans (w7_v65 m ρ c)

end Cert.KernelIdeal.Fold

end
-- ==== Proof.lean ====
/-
  A two-layer mean-aggregation graph network on a bipartite users–movies graph: the tiled kernel against the plain
  reference, on the extended reals.

  Each layer forms, per destination node, the mean of the source nodes' features over the incoming edges (a gather
  along the edges, a sum per destination, a division by the number of incoming edges clipped below at one) and then
  combines:  mean · Wl + own · Wr + b,  with a maximum with 0 after the first layer.  The kernel's program keeps the
  gathers, sums and divisions on the host and does the combine step in four pipelined regions (movies and users, two
  layers), each writing 5000 rows per grid point; the reference writes the combine step as two whole matrix products.

  On the extended reals a change of float format is the identity and a matrix product is the sum over the contracted
  axis in either program, so each region's output array is one whole-array function of the arrays it finds
  (Region0 … Region3), that function of the reference's earlier stages is the reference's next stage (SpecRef), and
  the host operations in between are the reference's own, except that the kernel counts the incoming edges without a
  trailing unit axis (ScatterCount).  Reading the buffers back through the program's four host stretches and four
  regions (Fold1 … Fold4) gives both results as the reference's final stages of the arguments; no law of arithmetic
  beyond the definitions is used, so the finiteness of the inputs is never opened.
-/
import proofs.«178897_j10419590660202_1_alg».proof.Defs
import proofs.«178897_j10419590660202_1_alg».proof.Proof.Gen.Kernel
import proofs.«178897_j10419590660202_1_alg».proof.Proof.Gen.Kernel.Skeleton
import proofs.«178897_j10419590660202_1_alg».proof.Proof.Gen.Kernel.Launch
import proofs.«178897_j10419590660202_1_alg».proof.Proof.Gen.Kernel.Points
import proofs.«178897_j10419590660202_1_alg».proof.Proof.Gen.Kernel.Frame
import proofs.«178897_j10419590660202_1_alg».proof.Proof.Gen.KernelIdeal
import proofs.«178897_j10419590660202_1_alg».proof.Proof.Gen.KernelIdeal.Skeleton
import proofs.«178897_j10419590660202_1_alg».proof.Proof.Gen.KernelIdeal.Launch
import proofs.«178897_j10419590660202_1_alg».proof.Proof.Gen.KernelIdeal.Points
import proofs.«178897_j10419590660202_1_alg».proof.Proof.Gen.KernelIdeal.Frame
import proofs.«178897_j10419590660202_1_alg».proof.Proof.Gen.ReferenceIdeal
import proofs.«178897_j10419590660202_1_alg».proof.Proof.Gen.Pre_finite_inputs
import proofs.«178897_j10419590660202_1_alg».proof.Proof.Gen.ReferenceIdeal.Run
import proofs.«178897_j10419590660202_1_alg».proof.Proof.Gen.ReferenceIdeal.Read
import proofs.«178897_j10419590660202_1_alg».proof.Proof.KernelRun
import proofs.«178897_j10419590660202_1_alg».proof.Proof.Fold4
import Idealize.ShloMosaic.Adequacy
import Idealize.ShloMosaic.Init

noncomputable section

namespace Cert.Proof

open Idealize.ShloMosaic Idealize.SL.Sem

/-- The kernel's program as printed runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

set_option maxHeartbeats 4000000 in
open Cert.ReferenceIdeal.Read in
/-- From memories agreeing on the arguments both programs end with the users' and the movies' second-layer embeddings
    at the reference's final stages of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => val_main_v111 (F := Ideal) (Cert.KernelIdeal.Fold.a0 m c) (Cert.KernelIdeal.Fold.a1 m c) (Cert.KernelIdeal.Fold.a2 m c) (Cert.KernelIdeal.Fold.a3 m c) (Cert.KernelIdeal.Fold.a4 m c) (Cert.KernelIdeal.Fold.a5 m c) (Cert.KernelIdeal.Fold.a6 m c) (Cert.KernelIdeal.Fold.a7 m c) (Cert.KernelIdeal.Fold.a8 m c) (Cert.KernelIdeal.Fold.a9 m c) (Cert.KernelIdeal.Fold.a10 m c) (Cert.KernelIdeal.Fold.a11 m c) (Cert.KernelIdeal.Fold.a14 m c) (Cert.KernelIdeal.Fold.a15 m c) (Cert.KernelIdeal.Fold.a16 m c) (Cert.KernelIdeal.Fold.a17 m c) (Cert.KernelIdeal.Fold.a19 m c),
    fun c => val_main_v87 (F := Ideal) (Cert.KernelIdeal.Fold.a0 m c) (Cert.KernelIdeal.Fold.a1 m c) (Cert.KernelIdeal.Fold.a2 m c) (Cert.KernelIdeal.Fold.a3 m c) (Cert.KernelIdeal.Fold.a4 m c) (Cert.KernelIdeal.Fold.a5 m c) (Cert.KernelIdeal.Fold.a6 m c) (Cert.KernelIdeal.Fold.a7 m c) (Cert.KernelIdeal.Fold.a8 m c) (Cert.KernelIdeal.Fold.a9 m c) (Cert.KernelIdeal.Fold.a10 m c) (Cert.KernelIdeal.Fold.a11 m c) (Cert.KernelIdeal.Fold.a12 m c) (Cert.KernelIdeal.Fold.a13 m c) (Cert.KernelIdeal.Fold.a16 m c) (Cert.KernelIdeal.Fold.a17 m c) (Cert.KernelIdeal.Fold.a18 m c), ?_, ?_⟩
  · refine (θ_run Cert.KernelIdeal.defs _ _).mono (fun r h c => ?_) (Cert.KernelIdeal.Fold.run_results (F := Ideal) m ρ)
    obtain ⟨h78, h65, hargs⟩ := h c
    exact ⟨h78.trans (Cert.KernelIdeal.Fold.w8_v78 m ρ c), h65.trans (Cert.KernelIdeal.Fold.w8_v65 m ρ c), hargs⟩
  · refine (θ_run Cert.ReferenceIdeal.defs _ _).mono (fun r h c => ?_) (Cert.ReferenceIdeal.Value.run (F := Ideal) m' ρ')
    obtain ⟨h111, h87, hargs⟩ := h c
    obtain ⟨g0, g1, g2, g3, g4, g5, g6, g7, g8, g9, g10, g11, g12, g13, g14, g15, g16, g17, g18, g19⟩ := hagree c
    refine ⟨h111.trans ?_, h87.trans ?_, hargs⟩
    · rw [val_main_v111_eq, g0, g1, g2, g3, g4, g5, g6, g7, g8, g9, g10, g11, g14, g15, g16, g17, g19]
    · rw [val_main_v87_eq, g0, g1, g2, g3, g4, g5, g6, g7, g8, g9, g10, g11, g12, g13, g16, g17, g18]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
